-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S4096x4096 .f32) (main_arg2 : FVec F S4096x4096 .f32) (main_arg3 : FVec F S4096x4096 .f32) (main_arg4 : FVec F S4096x4096 .f32) (main_arg5 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S64x4096 : Shape := ⟨2, ![64, 4096]⟩
abbrev S4096x4096 : Shape := ⟨2, ![4096, 4096]⟩
abbrev S256x4096 : Shape := ⟨2, ![256, 4096]⟩
abbrev S4096x256 : Shape := ⟨2, ![4096, 256]⟩
abbrev S64x256 : Shape := ⟨2, ![64, 256]⟩

abbrev nBuf : Space → Nat
  | .hbm => 7
  | .vmem => 16
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S64x4096, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S64x256, .f32⟩
  | .local _ .vmem, ⟨12, _⟩ => ⟨S64x256, .f32⟩
  | .local _ .vmem, ⟨13, _⟩ => ⟨S64x4096, .f32⟩
  | .local _ .vmem, ⟨14, _⟩ => ⟨S64x4096, .bf16⟩
  | .local _ .vmem, ⟨15, _⟩ => ⟨S64x4096, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_5 : Index := 0#32
  let arg1 : BitVec 32 := BitVec.ofNat 32 (i 1).val
  let c256_i32 : BitVec 32 := 256#32
  let v8 : BitVec 32 := Scalar.muli arg1 c256_i32
  let v13 : Index := Scalar.indexCast v8
  ![0, v13.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let c0_10 : Index := 0#32
  let arg1 : BitVec 32 := BitVec.ofNat 32 (i 1).val
  let c256_i32 : BitVec 32 := 256#32
  let v14 : BitVec 32 := Scalar.muli arg1 c256_i32
  let v15 : Index := Scalar.indexCast v14
  ![0, v15.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  h_S64x256 : 0 < S64x256.numel
  shapeCasts_S64x256_S64x256 : S64x256.ShapeCasts S64x256
  inb_S4096x256_S4096x256_0_0 : ∀ a, (![0, 0] : Fin 2 → Nat) a + S4096x256.size a ≤ S4096x256.size a
  h_S4096x256 : 0 < S4096x256.numel
  inb_S64x256_S64x256_0_0 : ∀ a, (![0, 0] : Fin 2 → Nat) a + S64x256.size a ≤ S64x256.size a
  dot_S64x4096_S256x4096_S64x256_1_1_0_0_n_n_wf : DotDims.WF S64x4096 S256x4096 S64x256 [1] [1] [0] [0] [] []
  dot_S64x4096_S4096x256_S64x256_1_0_0_1_n_n_wf : DotDims.WF S64x4096 S4096x256 S64x256 [1] [0] [0] [1] [] []
  hrank0 : 0 < grid0.rank
  k0_off1_inb : ∀ i : grid0.Coords, ∀ (k0_h1 : k0_cond1 i = 1#1), ∀ a, (k0_off1 i) a + S64x256.size a ≤ S64x4096.size a
  k0_off1_packedbf16 : ∀ i : grid0.Coords, ∀ (k0_h1 : k0_cond1 i = 1#1), (Rect.unit (s := S64x4096) (k0_off1 i) S64x256.size (k0_off1_inb i k0_h1)).PackedRows (EltTy.packing .bf16)
  k0_off2_inb : ∀ i : grid0.Coords, ∀ (k0_h2 : k0_cond2 i = 1#1), ∀ a, (k0_off2 i) a + S64x256.size a ≤ S64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .f32 = 32 ∨ (Rect.block (s := S4096x4096) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x4096.size a
  hwx0_5 : ∀ i : grid0.Coords, EltTy.bits .f32 = 32 ∨ (Rect.block (s := S4096x4096) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x4096.size a
  hwx0_6 : ∀ i : grid0.Coords, EltTy.bits .f32 = 32 ∨ (Rect.block (s := S64x4096) S64x256.size (cc0_transform_6 i) (hinb0_6 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S64x4096, .f32⟩
  | .hbm, ⟨8, _⟩ => ⟨S64x4096, .f32⟩
  | .hbm, ⟨9, _⟩ => ⟨S4096x4096, .f32⟩
  | .hbm, ⟨10, _⟩ => ⟨S64x4096, .f32⟩
  | .hbm, ⟨11, _⟩ => ⟨S64x4096, .f32⟩
  | .hbm, ⟨12, _⟩ => ⟨S64x4096, .f32⟩
  | .hbm, ⟨13, _⟩ => ⟨S4096x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S64x4096, .f32⟩
  | .hbm, ⟨18, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S64x4096_S4096x4096_S64x4096_1_0_0_1_n_n_wf : DotDims.WF S64x4096 S4096x4096 S64x4096 [1] [0] [0] [1] [] []

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

class Facts : Prop extends Facts₀ where

variable [Facts]
-- ==== Proof.K.Shared.lean ====
/-
  What the two phases of the body share: which grid points are in which phase, the column offset of the slice a
  point addresses, where the windows are idle, and the memrefs the body is called with.
-/
import proofs.«162602_g29257317220555_retrytranche2_756_5_alg».proof.Proof.Gen.Kernel.Frame
import proofs.«162602_g29257317220555_retrytranche2_756_5_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases, over the grid

The grid is 2 × 16, walked row by row: points 0 … 15 are phase 0 (the first conditional taken, the second not),
points 16 … 31 phase 1 (the second taken, the first not). -/

/-- The first conditional's condition at a grid position. -/
abbrev inPhase0 (i : grid0.Coords) : Prop := k0_cond1 i = 1#1
/-- The second conditional's condition at a grid position. -/
abbrev inPhase1 (i : grid0.Coords) : Prop := k0_cond2 i = 1#1

/-- Phase 0 is the first sixteen points. -/
theorem inPhase0_iff : ∀ t : Fin cfg0.N, inPhase0 (grid0.coords t) ↔ t.val < 16 :=
  (by decide +kernel : ∀ t : Fin grid0.N, inPhase0 (grid0.coords t) ↔ t.val < 16)
/-- Phase 1 is the last sixteen points. -/
theorem inPhase1_iff : ∀ t : Fin cfg0.N, inPhase1 (grid0.coords t) ↔ 16 ≤ t.val :=
  (by decide +kernel : ∀ t : Fin grid0.N, inPhase1 (grid0.coords t) ↔ 16 ≤ t.val)

/-- The column offset of the slice the body addresses at a point: 256 times the second grid coordinate. -/
theorem off1_eq : ∀ t : Fin cfg0.N, k0_off1 (grid0.coords t) = ![0, 256 * (t.val % 16)] :=
  (by decide +kernel : ∀ t : Fin grid0.N, k0_off1 (grid0.coords t) = ![0, 256 * (t.val % 16)])
theorem off2_eq : ∀ t : Fin cfg0.N, k0_off2 (grid0.coords t) = ![0, 256 * (t.val % 16)] :=
  (by decide +kernel : ∀ t : Fin grid0.N, k0_off2 (grid0.coords t) = ![0, 256 * (t.val % 16)])

/-- The six input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in phase 0, and is not written back there. -/
theorem idle6 : ∀ t : Fin cfg0.N, t.val < 16 → cfg0.idle 6 (grid0.coords t) = true :=
  (by decide +kernel : ∀ t : Fin grid0.N, t.val < 16 → cfg0.idle 6 (grid0.coords t) = true)
theorem noflush6 : ∀ t : Fin cfg0.N, t.val < 16 → (cfg0.win 6).flush t = false :=
  (by decide +kernel : ∀ t : Fin grid0.N, t.val < 16 → win0_6.flush t = false)
theorem live6 : ∀ t : Fin cfg0.N, 16 ≤ t.val → cfg0.idle 6 (grid0.coords t) = false :=
  (by decide +kernel : ∀ t : Fin grid0.N, 16 ≤ t.val → cfg0.idle 6 (grid0.coords t) = false)

/-! ## The memrefs the body is called with -/

abbrev mr0 (t : Fin cfg0.N) : Memref sig .tc .vmem S64x4096 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S256x4096 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S256x4096 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S256x4096 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S4096x256 .f32 := win0_4.stage (cfg0.slots t 4)
abbrev wh4 (t : Fin cfg0.N) : (mr4 t).IsWhole := hstage0_4 ((cfg0.slots t 4).cast nbuf0_4)
abbrev mr5 (t : Fin cfg0.N) : Memref sig .tc .vmem S4096x256 .f32 := win0_5.stage (cfg0.slots t 5)
abbrev wh5 (t : Fin cfg0.N) : (mr5 t).IsWhole := hstage0_5 ((cfg0.slots t 5).cast nbuf0_5)
abbrev mr6 (t : Fin cfg0.N) : Memref sig .tc .vmem S64x256 .f32 := win0_6.stage (cfg0.slots t 6)
abbrev wh6 (t : Fin cfg0.N) : (mr6 t).IsWhole := hstage0_6 ((cfg0.slots t 6).cast nbuf0_6)
/-- The three scratch operands: whole scoped buffers of the kernel's own. -/
abbrev sc0 : Memref sig .tc .vmem S64x4096 .f32 := Memref.whole cc0_scratch0
abbrev sc1 : Memref sig .tc .vmem S64x4096 .bf16 := Memref.whole cc0_scratch1
abbrev sc2 : Memref sig .tc .vmem S64x4096 .bf16 := Memref.whole cc0_scratch2

/-- The class invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Hand

end
-- ==== Proof.K.Carried.lean ====
/-
  What the kernel carries from point to point in its three scratch buffers, as functions of the argument arrays'
  blocks, and what a phase-1 point stores into the output window's buffer.
-/
import proofs.«162602_g29257317220555_retrytranche2_756_5_alg».proof.Proof.K.Shared
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A 64 × 256 slab written into a 64 × 4096 buffer -/

/-- The buffer contents `d` with the 64 × 256 slab at offsets `off` overwritten by `w`. -/
def slab {e : EltTy} (off : Fin 2 → ℕ) (d : Vec F S64x4096 e) (w : Vec F S64x256 e) : Vec F S64x4096 e :=
  fun y => if h : ∀ a, off a ≤ (y a).val ∧ (y a).val < off a + S64x256.size a then
      w (Rect.unitLocal (s := S64x4096) (off := off) (size := S64x256.size) y h) else d y

/-- One slab store into a whole buffer holding `d`, read back: the slab where the store landed, `d` elsewhere. -/
theorem read_slab {e : EltTy} (arg : Memref sig .tc .vmem S64x4096 e) (h : arg.IsWhole) (off : Fin 2 → ℕ)
    (inb : ∀ a, off a + S64x256.size a ≤ S64x4096.size a) (d : Vec F S64x4096 e)
    (w : (Rect.unit (s := S64x4096) off S64x256.size inb).shape.Idx → Elt F e) :
    arg.view.read (Elt F) (arg.view.writes (Elt F) (h.unread d) [⟨Rect.unit (s := S64x4096) off S64x256.size inb, w⟩]) = slab off d w := by
  funext y
  rw [View.read_writes_cons_unit arg.view (h.unread d) inb w [] y rfl]
  unfold slab
  by_cases hy : ∀ a, off a ≤ (y a).val ∧ (y a).val < off a + S64x256.size a
  · rw [dif_pos hy, dif_pos hy]
  · rw [dif_neg hy, dif_neg hy, View.writes_nil, h.read_unread]

/-- A store of a whole 64 × 256 buffer, read back, is its payload. -/
theorem read_whole {e : EltTy} (arg : Memref sig .tc .vmem S64x256 e) (h : arg.IsWhole)
    (inb : ∀ a, (![0, 0] : Fin 2 → ℕ) a + S64x256.size a ≤ S64x256.size a) (d : Vec F S64x256 e) (w : Vec F S64x256 e) :
    arg.view.read (Elt F) (arg.view.writes (Elt F) (h.unread d) [⟨Rect.unit (s := S64x256) ![0, 0] S64x256.size inb, w⟩]) = w := by
  funext y
  refine View.read_writes_cons_unit_of_mem arg.view (h.unread d) inb w [] y y rfl (fun a => ?_)
  match a with
  | ⟨0, _⟩ => exact (Nat.zero_add _).symm
  | ⟨1, _⟩ => exact (Nat.zero_add _).symm

/-- A load through a unit-stride rectangle does not depend on how its offsets are spelt. -/
theorem ld_congr_off {S : Shape} {e : EltTy} (X : S.Idx → Elt F e) (size : Fin S.rank → ℕ) {off off' : Fin S.rank → ℕ} (h : off = off')
    (inb : ∀ a, off a + size a ≤ S.size a) (inb' : ∀ a, off' a + size a ≤ S.size a) :
    View.ld X (Rect.unit off size inb) = View.ld X (Rect.unit off' size inb') := by
  subst h; rfl

/-! ## What the three scratch buffers carry

Phase 0's point `j` fills columns `[256 j, 256 j + 256)` of the three scratch buffers from the activations and the
`j`-th row block of each weight matrix; so column `q` is filled at point `q / 256`, from that point's blocks, at column
`q % 256` of the slab. -/

/-- The phase-0 point that fills the column of index `y`. -/
def colPt (y : S64x4096.Idx) : Fin cfg0.N :=
  ⟨(y 1).val / 256, by have h1 := ValueIdx.idx2_lt1 y; have hN : cfg0.N = 32 := N_0; omega⟩

/-- The position of index `y` inside that point's slab. -/
def colIn (y : S64x4096.Idx) : S64x256.Idx :=
  ValueIdx.ix2 (⟨(y 0).val, ValueIdx.idx2_lt0 y⟩ : Fin 64) (⟨(y 1).val % 256, Nat.mod_lt _ (by norm_num)⟩ : Fin 256)

/-- The first scratch, once filled: tanh of the activations against the first weight matrix's rows. -/
def HS (c : Dev nD) : Vec F S64x4096 .f32 :=
  fun y => k0_pay2 (iblk m c 0 (colPt y)) (iblk m c 1 (colPt y)) (colIn y)
/-- The second scratch, once filled: the activations against the second weight matrix's rows. -/
def YU (c : Dev nD) : Vec F S64x4096 .bf16 :=
  fun y => k0_pay3 (iblk m c 0 (colPt y)) (iblk m c 2 (colPt y)) (colIn y)
/-- The third scratch, once filled: the activations against the third weight matrix's rows. -/
def YD (c : Dev nD) : Vec F S64x4096 .bf16 :=
  fun y => k0_pay4 (iblk m c 0 (colPt y)) (iblk m c 3 (colPt y)) (colIn y)

/-- The slab offsets at a point, in closed form, stay inside the buffer. -/
theorem off_inb (t : Fin cfg0.N) : ∀ a, (![0, 256 * (t.val % 16)] : Fin 2 → ℕ) a + S64x256.size a ≤ S64x4096.size a := by
  intro a
  match a with
  | ⟨0, _⟩ => show 0 + 64 ≤ 64; omega
  | ⟨1, _⟩ => show 256 * (t.val % 16) + 256 ≤ 4096; omega

/-- What a phase-1 point stores into the output window's buffer: the first scratch's slab of the point's columns,
    plus tanh of the second scratch against the point's column block of the first square operator, plus tanh of the
    third scratch against the point's column block of the second. -/
def OUT (c : Dev nD) (t : Fin cfg0.N) : Vec F S64x256 .f32 :=
  k0_pay5 (YU m c) (iblk m c 4 t) (YD m c) (iblk m c 5 t)
    (View.ld (HS m c) (Rect.unit (s := S64x4096) ![0, 256 * (t.val % 16)] S64x256.size (off_inb t)))

/-- The scratch buffers before the point at position `n`: every column below `256 n` holds its final value. -/
def Good (c : Dev nD) (n : ℕ) (d0 : Vec F S64x4096 .f32) (d1 d2 : Vec F S64x4096 .bf16) : Prop :=
  ∀ y : S64x4096.Idx, (y 1).val < 256 * n → d0 y = HS m c y ∧ d1 y = YU m c y ∧ d2 y = YD m c y

theorem good_zero (c : Dev nD) (d0 : Vec F S64x4096 .f32) (d1 d2 : Vec F S64x4096 .bf16) : Good m c 0 d0 d1 d2 :=
  fun y h => absurd h (by omega)

/-- From position 16 on nothing is left to fill. -/
theorem good_keep (c : Dev nD) (n : ℕ) (hn : 16 ≤ n) (d0 : Vec F S64x4096 .f32) (d1 d2 : Vec F S64x4096 .bf16)
    (h : Good m c n d0 d1 d2) : Good m c (n + 1) d0 d1 d2 :=
  fun y _ => h y (by have h1 := ValueIdx.idx2_lt1 y; omega)

/-- From position 16 on the three buffers are the filled ones. -/
theorem good_full (c : Dev nD) (n : ℕ) (hn : 16 ≤ n) (d0 : Vec F S64x4096 .f32) (d1 d2 : Vec F S64x4096 .bf16)
    (h : Good m c n d0 d1 d2) : d0 = HS m c ∧ d1 = YU m c ∧ d2 = YD m c :=
  have hy : ∀ y : S64x4096.Idx, (y 1).val < 256 * n := fun y => by have h1 := ValueIdx.idx2_lt1 y; omega
  ⟨funext fun y => (h y (hy y)).1, funext fun y => (h y (hy y)).2.1, funext fun y => (h y (hy y)).2.2⟩

end Cert.Kernel.Hand

end
-- ==== Proof.K.RunPhase0.lean ====
/-
  The body run once at a point of phase 0 (the first sixteen grid points).
-/
import proofs.«162602_g29257317220555_retrytranche2_756_5_alg».proof.Proof.K.Carried
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are zero on both axes. -/
theorem hz2 : (![0, 0] : Fin 2 → ℕ) = fun _ => 0 := by
  funext a; match a with | ⟨0, _⟩ => rfl | ⟨1, _⟩ => rfl

set_option maxHeartbeats 2000000 in
/-- The body at a phase-0 point, on whole memrefs: the six input blocks and the output window's buffer are handed
    back as they were; each scratch buffer comes back with the point's 64 × 256 slab overwritten by the payload of
    the activations' block and the matching weight block, and is otherwise as it was. -/
theorem run_phase0 (c : Dev nD) (i : grid0.Coords) (arg2 : Memref sig .tc .vmem S64x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S64x256 .f32) (harg8 : arg8.IsWhole) (arg9 : Memref sig .tc .vmem S64x4096 .f32) (harg9 : arg9.IsWhole) (arg10 : Memref sig .tc .vmem S64x4096 .bf16) (harg10 : arg10.IsWhole) (arg11 : Memref sig .tc .vmem S64x4096 .bf16) (harg11 : arg11.IsWhole) (hc0 : inPhase0 i) (hc1 : ¬inPhase1 i)
    (x0 : Vec F S64x4096 .f32) (x1 : Vec F S256x4096 .f32) (x2 : Vec F S256x4096 .f32) (x3 : Vec F S256x4096 .f32) (x4 : Vec F S4096x256 .f32) (x5 : Vec F S4096x256 .f32)
    (d6 : Vec F S64x256 .f32) (ds0 : Vec F S64x4096 .f32) (ds1 : Vec F S64x4096 .bf16) (ds2 : Vec F S64x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare ds1 ∗ owns (c : Thread nD τ) arg11 fullShare ds2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6
                ∗ owns (c : Thread nD τ) arg9 fullShare (slab (k0_off1 i) ds0 (k0_pay2 x0 x1))
                ∗ owns (c : Thread nD τ) arg10 fullShare (slab (k0_off1 i) ds1 (k0_pay3 x0 x2))
                ∗ owns (c : Thread nD τ) arg11 fullShare (slab (k0_off1 i) ds2 (k0_pay4 x0 x3))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; swap; · iexact HS0
      ipureintro
      simp only [View.readAt_eq_ld, harg2.read_unread, harg3.read_unread, View.ld_unit_zero (S := S64x4096) hz2, View.ld_unit_zero (S := S256x4096) hz2]
      exact read_slab arg9 harg9 (k0_off1 i) _ ds0 _
    isplitl [HS1]
    · iexists _; isplitr; swap; · iexact HS1
      ipureintro
      simp only [View.readAt_eq_ld, harg2.read_unread, harg4.read_unread, View.ld_unit_zero (S := S64x4096) hz2, View.ld_unit_zero (S := S256x4096) hz2]
      exact read_slab arg10 harg10 (k0_off1 i) _ ds1 _
    iexists _; isplitr; swap; · iexact HS2
    ipureintro
    simp only [View.readAt_eq_ld, harg2.read_unread, harg5.read_unread, View.ld_unit_zero (S := S64x4096) hz2, View.ld_unit_zero (S := S256x4096) hz2]
    exact read_slab arg11 harg11 (k0_off1 i) _ ds2 _

end Cert.Kernel.Hand

end
-- ==== Proof.K.RunPhase1.lean ====
/-
  The body run once at a point of phase 1 (the last sixteen grid points).
-/
import proofs.«162602_g29257317220555_retrytranche2_756_5_alg».proof.Proof.K.Carried
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are zero on both axes. -/
theorem hz2' : (![0, 0] : Fin 2 → ℕ) = fun _ => 0 := by
  funext a; match a with | ⟨0, _⟩ => rfl | ⟨1, _⟩ => rfl

set_option maxHeartbeats 2000000 in
/-- The body at a phase-1 point, on whole memrefs: the six input blocks and the three scratch buffers are handed
    back as they were; the output window's buffer, whatever it held, comes back holding the point's result — the
    slab of the first scratch at the point's columns, plus tanh of the second scratch against the fifth block, plus
    tanh of the third scratch against the sixth block. -/
theorem run_phase1 (c : Dev nD) (i : grid0.Coords) (arg2 : Memref sig .tc .vmem S64x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S64x256 .f32) (harg8 : arg8.IsWhole) (arg9 : Memref sig .tc .vmem S64x4096 .f32) (harg9 : arg9.IsWhole) (arg10 : Memref sig .tc .vmem S64x4096 .bf16) (harg10 : arg10.IsWhole) (arg11 : Memref sig .tc .vmem S64x4096 .bf16) (harg11 : arg11.IsWhole) (hc0 : ¬inPhase0 i) (hc1 : inPhase1 i)
    (x0 : Vec F S64x4096 .f32) (x1 : Vec F S256x4096 .f32) (x2 : Vec F S256x4096 .f32) (x3 : Vec F S256x4096 .f32) (x4 : Vec F S4096x256 .f32) (x5 : Vec F S4096x256 .f32)
    (d6 : Vec F S64x256 .f32) (ds0 : Vec F S64x4096 .f32) (ds1 : Vec F S64x4096 .bf16) (ds2 : Vec F S64x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare ds1 ∗ owns (c : Thread nD τ) arg11 fullShare ds2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k0_pay5 ds1 x4 ds2 x5 (View.ld ds0 (Rect.unit (s := S64x4096) (k0_off2 i) S64x256.size (k0_off2_inb i hc1))))
                ∗ owns (c : Thread nD τ) arg9 fullShare ds0 ∗ owns (c : Thread nD τ) arg10 fullShare ds1 ∗ owns (c : Thread nD τ) arg11 fullShare ds2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      simp only [View.readAt_eq_ld, harg6.read_unread, harg7.read_unread, harg9.read_unread, harg10.read_unread, harg11.read_unread,
        View.ld_unit_zero (S := S64x4096) hz2', View.ld_unit_zero (S := S4096x256) hz2']
      exact read_whole arg8 harg8 _ d6 _
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.Kernel.Hand

end
-- ==== Proof.K.GoodStep.lean ====
/-
  One phase-0 point extends what the three scratch buffers carry: after the point at position t stores its three
  64 × 256 slabs at columns [256 t, 256 t + 256), every column below 256 (t + 1) holds its final value.
-/
import proofs.«162602_g29257317220555_retrytranche2_756_5_alg».proof.Proof.K.Carried

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The point at position t < 16 overwrites columns [256 t, 256 t + 256) of the three buffers with its three
    payloads. An index whose column lies in that range is inside the slab, at row the same and column minus 256 t,
    which is the column modulo 256, and the point that fills its column (the column divided by 256) is t: the slab's
    value there is the final value by definition. An index whose column is below 256 t is outside the slab and keeps
    the value it had, final by hypothesis. -/
theorem good_step (c : Dev nD) (t : Fin cfg0.N) (ht : t.val < 16) (d0 : Vec F S64x4096 .f32) (d1 d2 : Vec F S64x4096 .bf16)
    (h : Good m c t.val d0 d1 d2) :
    Good m c (t.val + 1)
      (slab (k0_off1 (grid0.coords t)) d0 (k0_pay2 (iblk m c 0 t) (iblk m c 1 t)))
      (slab (k0_off1 (grid0.coords t)) d1 (k0_pay3 (iblk m c 0 t) (iblk m c 2 t)))
      (slab (k0_off1 (grid0.coords t)) d2 (k0_pay4 (iblk m c 0 t) (iblk m c 3 t))) := by
  intro y hy
  have hoff : k0_off1 (grid0.coords t) = ![0, 256 * t.val] := by
    rw [off1_eq t, Nat.mod_eq_of_lt ht]
  rw [hoff]
  have hy1 : (y 1).val < 256 * (t.val + 1) := hy
  by_cases hc : (y 1).val < 256 * t.val
  · -- the column is below the slab: the old values
    have hn : ¬ ∀ a, (![0, 256 * t.val] : Fin 2 → ℕ) a ≤ (y a).val
        ∧ (y a).val < (![0, 256 * t.val] : Fin 2 → ℕ) a + S64x256.size a := by
      intro hh
      have h1 : 256 * t.val ≤ (y 1).val := (hh 1).1
      omega
    unfold slab
    rw [dif_neg hn, dif_neg hn, dif_neg hn]
    exact h y hc
  · -- the column is in the slab: the payloads of the point's blocks
    have hin : ∀ a, (![0, 256 * t.val] : Fin 2 → ℕ) a ≤ (y a).val
        ∧ (y a).val < (![0, 256 * t.val] : Fin 2 → ℕ) a + S64x256.size a := by
      intro a
      match a with
      | ⟨0, _⟩ =>
        have h0 : (y 0).val < 64 := ValueIdx.idx2_lt0 y
        show 0 ≤ (y 0).val ∧ (y 0).val < 0 + 64
        omega
      | ⟨1, _⟩ =>
        show 256 * t.val ≤ (y 1).val ∧ (y 1).val < 256 * t.val + 256
        omega
    have e1 : colPt y = t := Fin.ext (by show (y 1).val / 256 = t.val; omega)
    have e2 : colIn y
        = Rect.unitLocal (s := S64x4096) (off := ![0, 256 * t.val]) (size := S64x256.size) y hin := by
      funext a
      match a with
      | ⟨0, _⟩ => exact Fin.ext (by show (y 0).val = (y 0).val - 0; omega)
      | ⟨1, _⟩ => exact Fin.ext (by show (y 1).val % 256 = (y 1).val - 256 * t.val; omega)
    unfold slab
    rw [dif_pos hin, dif_pos hin, dif_pos hin]
    unfold HS YU YD
    rw [e1, e2]
    exact ⟨rfl, rfl, rfl⟩

end Cert.Kernel.Hand

end
-- ==== Proof.K.Frame.lean ====
/-
  The frame of the one region: the invariant the three scratch buffers carry from point to point, the proof data,
  the body obligation at a generic point (phase 0 or phase 1), and the run.
-/
import proofs.«162602_g29257317220555_retrytranche2_756_5_alg».proof.Proof.K.RunPhase0
import proofs.«162602_g29257317220555_retrytranche2_756_5_alg».proof.Proof.K.RunPhase1
import proofs.«162602_g29257317220555_retrytranche2_756_5_alg».proof.Proof.K.GoodStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant carried from point to point -/

/-- Before the point at position `n`: the three scratch buffers at contents whose columns below `256 n` are final, and
    the generator register at some state. -/
def PhiS (c : Dev nD) (n : ℕ) : sProp 𝕄 :=
  iprop((∃ d0 : Vec F S64x4096 .f32, ∃ d1 : Vec F S64x4096 .bf16, ∃ d2 : Vec F S64x4096 .bf16,
      ⌜Good m c n d0 d1 d2⌝ ∗ owns (c : Thread nD τ) sc0 fullShare d0 ∗ owns (c : Thread nD τ) sc1 fullShare d1 ∗ owns (c : Thread nD τ) sc2 fullShare d2)
    ∗ (∃ r, prngReg c r))

/-! ## The proof data -/

/-- The arrays as the region finds them; after the body at point `t` each input's buffer at its block and the output
    window's at the point's result; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = OUT m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The point's result with the slab's offsets as the kernel computes them. -/
theorem OUT_eq (c : Dev nD) (t : Fin cfg0.N) (h1 : inPhase1 (grid0.coords t)) :
    OUT m c t = k0_pay5 (YU m c) (iblk m c 4 t) (YD m c) (iblk m c 5 t)
      (View.ld (HS m c) (Rect.unit (s := S64x4096) (k0_off2 (grid0.coords t)) S64x256.size (k0_off2_inb (grid0.coords t) h1))) := by
  unfold OUT
  rw [ld_congr_off (HS m c) S64x256.size (off2_eq t) (k0_off2_inb (grid0.coords t) h1) (off_inb t)]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. In phase 0 the scratch buffers, handed over with their columns below `256 t` final, come
    back with the point's slab written, so with their columns below `256 (t + 1)` final; the output window's buffer
    is idle and comes back as it was. In phase 1 the scratch buffers are the filled ones, come back untouched, and the
    output window's buffer comes back at the point's result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 32 := lt_of_lt_of_eq t.isLt (show cfg0.N = 32 from N_0)
  rw [show (dats m 0 c).leavesExact 0 t = owns (c : Thread nD τ) (mr0 t) fullShare ((dats m 0 c).after 0 t) from by
    unfold Dat.leavesExact; rw [live0 t], after0]
  rw [show (dats m 0 c).leavesExact 1 t = owns (c : Thread nD τ) (mr1 t) fullShare ((dats m 0 c).after 1 t) from by
    unfold Dat.leavesExact; rw [live1 t], after1]
  rw [show (dats m 0 c).leavesExact 2 t = owns (c : Thread nD τ) (mr2 t) fullShare ((dats m 0 c).after 2 t) from by
    unfold Dat.leavesExact; rw [live2 t], after2]
  rw [show (dats m 0 c).leavesExact 3 t = owns (c : Thread nD τ) (mr3 t) fullShare ((dats m 0 c).after 3 t) from by
    unfold Dat.leavesExact; rw [live3 t], after3]
  rw [show (dats m 0 c).leavesExact 4 t = owns (c : Thread nD τ) (mr4 t) fullShare ((dats m 0 c).after 4 t) from by
    unfold Dat.leavesExact; rw [live4 t], after4]
  rw [show (dats m 0 c).leavesExact 5 t = owns (c : Thread nD τ) (mr5 t) fullShare ((dats m 0 c).after 5 t) from by
    unfold Dat.leavesExact; rw [live5 t], after5]
  by_cases h0 : t.val < 16
  · have hc0 : inPhase0 (grid0.coords t) := (inPhase0_iff t).mpr h0
    have hc1 : ¬inPhase1 (grid0.coords t) := fun h => by have := (inPhase1_iff t).mp h; omega
    rw [Dat.leavesExact_idle (dats m 0 c) 6 t (idle6 t h0) (noflush6 t h0)]
    iintro ⟨⟨⟨%d0, %d1, %d2, %hg, HS0, HS1, HS2⟩, Hg⟩, Ho, ⟨%e0, H0⟩, ⟨%e1, H1⟩, ⟨%e2, H2⟩, ⟨%e3, H3⟩, ⟨%e4, H4⟩, ⟨%e5, H5⟩, ⟨%e6, H6⟩⟩
    iapply ((run_phase0 c (grid0.coords t) _ _ _ _ _ _ _ _ _ _ _ _ _ _ _ _ _ _ _ _ hc0 hc1 (iblk m c 0 t) (iblk m c 1 t) (iblk m c 2 t) (iblk m c 3 t) (iblk m c 4 t) (iblk m c 5 t) ((dats m 0 c).before 6 t e6) d0 d1 d2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr
        · ipureintro; exact good_step m c t h0 d0 d1 d2 hg
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 16 ≤ t.val := by omega
    have hc0 : ¬inPhase0 (grid0.coords t) := fun h => h0 ((inPhase0_iff t).mp h)
    have hc1 : inPhase1 (grid0.coords t) := (inPhase1_iff t).mpr h1
    rw [show (dats m 0 c).leavesExact 6 t = owns (c : Thread nD τ) (mr6 t) fullShare ((dats m 0 c).after 6 t) from by
      unfold Dat.leavesExact; rw [live6 t h1], after6, OUT_eq m c t hc1]
    iintro ⟨⟨⟨%d0, %d1, %d2, %hg, HS0, HS1, HS2⟩, Hg⟩, Ho, ⟨%e0, H0⟩, ⟨%e1, H1⟩, ⟨%e2, H2⟩, ⟨%e3, H3⟩, ⟨%e4, H4⟩, ⟨%e5, H5⟩, ⟨%e6, H6⟩⟩
    obtain ⟨rfl, rfl, rfl⟩ := good_full m c t.val h1 d0 d1 d2 hg
    iapply ((run_phase1 c (grid0.coords t) _ _ _ _ _ _ _ _ _ _ _ _ _ _ _ _ _ _ _ _ hc0 hc1 (iblk m c 0 t) (iblk m c 1 t) (iblk m c 2 t) (iblk m c 3 t) (iblk m c 4 t) (iblk m c 5 t) ((dats m 0 c).before 6 t e6) (HS m c) (YU m c) (YD m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr
        · ipureintro; exact good_keep m c t.val h1 _ _ _ hg
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no column is asked to be final yet. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩, ⟨%d2, HS2⟩⟩, Hg⟩
  isplitl [HS0 HS1 HS2]
  · iexists d0, d1, d2
    isplitr
    · ipureintro; exact good_zero m c d0 d1 d2
    isplitl [HS0]; · iexact HS0
    isplitl [HS1]; · iexact HS1
    iexact HS2
  iexact Hg

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d0, %d1, %d2, %hg, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what
    the library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Shared.lean ====
/-
  What the two phases of the body share: which grid points are in which phase, the column offset of the slice a
  point addresses, where the windows are idle, and the memrefs the body is called with.
-/
import proofs.«162602_g29257317220555_retrytranche2_756_5_alg».proof.Proof.Gen.KernelIdeal.Frame
import proofs.«162602_g29257317220555_retrytranche2_756_5_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases, over the grid

The grid is 2 × 16, walked row by row: points 0 … 15 are phase 0 (the first conditional taken, the second not),
points 16 … 31 phase 1 (the second taken, the first not). -/

/-- The first conditional's condition at a grid position. -/
abbrev inPhase0 (i : grid0.Coords) : Prop := k0_cond1 i = 1#1
/-- The second conditional's condition at a grid position. -/
abbrev inPhase1 (i : grid0.Coords) : Prop := k0_cond2 i = 1#1

/-- Phase 0 is the first sixteen points. -/
theorem inPhase0_iff : ∀ t : Fin cfg0.N, inPhase0 (grid0.coords t) ↔ t.val < 16 :=
  (by decide +kernel : ∀ t : Fin grid0.N, inPhase0 (grid0.coords t) ↔ t.val < 16)
/-- Phase 1 is the last sixteen points. -/
theorem inPhase1_iff : ∀ t : Fin cfg0.N, inPhase1 (grid0.coords t) ↔ 16 ≤ t.val :=
  (by decide +kernel : ∀ t : Fin grid0.N, inPhase1 (grid0.coords t) ↔ 16 ≤ t.val)

/-- The column offset of the slice the body addresses at a point: 256 times the second grid coordinate. -/
theorem off1_eq : ∀ t : Fin cfg0.N, k0_off1 (grid0.coords t) = ![0, 256 * (t.val % 16)] :=
  (by decide +kernel : ∀ t : Fin grid0.N, k0_off1 (grid0.coords t) = ![0, 256 * (t.val % 16)])
theorem off2_eq : ∀ t : Fin cfg0.N, k0_off2 (grid0.coords t) = ![0, 256 * (t.val % 16)] :=
  (by decide +kernel : ∀ t : Fin grid0.N, k0_off2 (grid0.coords t) = ![0, 256 * (t.val % 16)])

/-- The six input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in phase 0, and is not written back there. -/
theorem idle6 : ∀ t : Fin cfg0.N, t.val < 16 → cfg0.idle 6 (grid0.coords t) = true :=
  (by decide +kernel : ∀ t : Fin grid0.N, t.val < 16 → cfg0.idle 6 (grid0.coords t) = true)
theorem noflush6 : ∀ t : Fin cfg0.N, t.val < 16 → (cfg0.win 6).flush t = false :=
  (by decide +kernel : ∀ t : Fin grid0.N, t.val < 16 → win0_6.flush t = false)
theorem live6 : ∀ t : Fin cfg0.N, 16 ≤ t.val → cfg0.idle 6 (grid0.coords t) = false :=
  (by decide +kernel : ∀ t : Fin grid0.N, 16 ≤ t.val → cfg0.idle 6 (grid0.coords t) = false)

/-! ## The memrefs the body is called with -/

abbrev mr0 (t : Fin cfg0.N) : Memref sig .tc .vmem S64x4096 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S256x4096 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S256x4096 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S256x4096 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S4096x256 .f32 := win0_4.stage (cfg0.slots t 4)
abbrev wh4 (t : Fin cfg0.N) : (mr4 t).IsWhole := hstage0_4 ((cfg0.slots t 4).cast nbuf0_4)
abbrev mr5 (t : Fin cfg0.N) : Memref sig .tc .vmem S4096x256 .f32 := win0_5.stage (cfg0.slots t 5)
abbrev wh5 (t : Fin cfg0.N) : (mr5 t).IsWhole := hstage0_5 ((cfg0.slots t 5).cast nbuf0_5)
abbrev mr6 (t : Fin cfg0.N) : Memref sig .tc .vmem S64x256 .f32 := win0_6.stage (cfg0.slots t 6)
abbrev wh6 (t : Fin cfg0.N) : (mr6 t).IsWhole := hstage0_6 ((cfg0.slots t 6).cast nbuf0_6)
/-- The three scratch operands: whole scoped buffers of the kernel's own. -/
abbrev sc0 : Memref sig .tc .vmem S64x4096 .f32 := Memref.whole cc0_scratch0
abbrev sc1 : Memref sig .tc .vmem S64x4096 .bf16 := Memref.whole cc0_scratch1
abbrev sc2 : Memref sig .tc .vmem S64x4096 .bf16 := Memref.whole cc0_scratch2

/-- The class invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Hand

end
-- ==== Proof.KI.Carried.lean ====
/-
  What the kernel carries from point to point in its three scratch buffers, as functions of the argument arrays'
  blocks, and what a phase-1 point stores into the output window's buffer.
-/
import proofs.«162602_g29257317220555_retrytranche2_756_5_alg».proof.Proof.KI.Shared
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A 64 × 256 slab written into a 64 × 4096 buffer -/

/-- The buffer contents `d` with the 64 × 256 slab at offsets `off` overwritten by `w`. -/
def slab {e : EltTy} (off : Fin 2 → ℕ) (d : Vec F S64x4096 e) (w : Vec F S64x256 e) : Vec F S64x4096 e :=
  fun y => if h : ∀ a, off a ≤ (y a).val ∧ (y a).val < off a + S64x256.size a then
      w (Rect.unitLocal (s := S64x4096) (off := off) (size := S64x256.size) y h) else d y

/-- One slab store into a whole buffer holding `d`, read back: the slab where the store landed, `d` elsewhere. -/
theorem read_slab {e : EltTy} (arg : Memref sig .tc .vmem S64x4096 e) (h : arg.IsWhole) (off : Fin 2 → ℕ)
    (inb : ∀ a, off a + S64x256.size a ≤ S64x4096.size a) (d : Vec F S64x4096 e)
    (w : (Rect.unit (s := S64x4096) off S64x256.size inb).shape.Idx → Elt F e) :
    arg.view.read (Elt F) (arg.view.writes (Elt F) (h.unread d) [⟨Rect.unit (s := S64x4096) off S64x256.size inb, w⟩]) = slab off d w := by
  funext y
  rw [View.read_writes_cons_unit arg.view (h.unread d) inb w [] y rfl]
  unfold slab
  by_cases hy : ∀ a, off a ≤ (y a).val ∧ (y a).val < off a + S64x256.size a
  · rw [dif_pos hy, dif_pos hy]
  · rw [dif_neg hy, dif_neg hy, View.writes_nil, h.read_unread]

/-- A store of a whole 64 × 256 buffer, read back, is its payload. -/
theorem read_whole {e : EltTy} (arg : Memref sig .tc .vmem S64x256 e) (h : arg.IsWhole)
    (inb : ∀ a, (![0, 0] : Fin 2 → ℕ) a + S64x256.size a ≤ S64x256.size a) (d : Vec F S64x256 e) (w : Vec F S64x256 e) :
    arg.view.read (Elt F) (arg.view.writes (Elt F) (h.unread d) [⟨Rect.unit (s := S64x256) ![0, 0] S64x256.size inb, w⟩]) = w := by
  funext y
  refine View.read_writes_cons_unit_of_mem arg.view (h.unread d) inb w [] y y rfl (fun a => ?_)
  match a with
  | ⟨0, _⟩ => exact (Nat.zero_add _).symm
  | ⟨1, _⟩ => exact (Nat.zero_add _).symm

/-- A load through a unit-stride rectangle does not depend on how its offsets are spelt. -/
theorem ld_congr_off {S : Shape} {e : EltTy} (X : S.Idx → Elt F e) (size : Fin S.rank → ℕ) {off off' : Fin S.rank → ℕ} (h : off = off')
    (inb : ∀ a, off a + size a ≤ S.size a) (inb' : ∀ a, off' a + size a ≤ S.size a) :
    View.ld X (Rect.unit off size inb) = View.ld X (Rect.unit off' size inb') := by
  subst h; rfl

/-! ## What the three scratch buffers carry

Phase 0's point `j` fills columns `[256 j, 256 j + 256)` of the three scratch buffers from the activations and the
`j`-th row block of each weight matrix; so column `q` is filled at point `q / 256`, from that point's blocks, at column
`q % 256` of the slab. -/

/-- The phase-0 point that fills the column of index `y`. -/
def colPt (y : S64x4096.Idx) : Fin cfg0.N :=
  ⟨(y 1).val / 256, by have h1 := ValueIdx.idx2_lt1 y; have hN : cfg0.N = 32 := N_0; omega⟩

/-- The position of index `y` inside that point's slab. -/
def colIn (y : S64x4096.Idx) : S64x256.Idx :=
  ValueIdx.ix2 (⟨(y 0).val, ValueIdx.idx2_lt0 y⟩ : Fin 64) (⟨(y 1).val % 256, Nat.mod_lt _ (by norm_num)⟩ : Fin 256)

/-- The first scratch, once filled: tanh of the activations against the first weight matrix's rows. -/
def HS (c : Dev nD) : Vec F S64x4096 .f32 :=
  fun y => k0_pay2 (iblk m c 0 (colPt y)) (iblk m c 1 (colPt y)) (colIn y)
/-- The second scratch, once filled: the activations against the second weight matrix's rows. -/
def YU (c : Dev nD) : Vec F S64x4096 .bf16 :=
  fun y => k0_pay3 (iblk m c 0 (colPt y)) (iblk m c 2 (colPt y)) (colIn y)
/-- The third scratch, once filled: the activations against the third weight matrix's rows. -/
def YD (c : Dev nD) : Vec F S64x4096 .bf16 :=
  fun y => k0_pay4 (iblk m c 0 (colPt y)) (iblk m c 3 (colPt y)) (colIn y)

/-- The slab offsets at a point, in closed form, stay inside the buffer. -/
theorem off_inb (t : Fin cfg0.N) : ∀ a, (![0, 256 * (t.val % 16)] : Fin 2 → ℕ) a + S64x256.size a ≤ S64x4096.size a := by
  intro a
  match a with
  | ⟨0, _⟩ => show 0 + 64 ≤ 64; omega
  | ⟨1, _⟩ => show 256 * (t.val % 16) + 256 ≤ 4096; omega

/-- What a phase-1 point stores into the output window's buffer: the first scratch's slab of the point's columns,
    plus tanh of the second scratch against the point's column block of the first square operator, plus tanh of the
    third scratch against the point's column block of the second. -/
def OUT (c : Dev nD) (t : Fin cfg0.N) : Vec F S64x256 .f32 :=
  k0_pay5 (YU m c) (iblk m c 4 t) (YD m c) (iblk m c 5 t)
    (View.ld (HS m c) (Rect.unit (s := S64x4096) ![0, 256 * (t.val % 16)] S64x256.size (off_inb t)))

/-- The scratch buffers before the point at position `n`: every column below `256 n` holds its final value. -/
def Good (c : Dev nD) (n : ℕ) (d0 : Vec F S64x4096 .f32) (d1 d2 : Vec F S64x4096 .bf16) : Prop :=
  ∀ y : S64x4096.Idx, (y 1).val < 256 * n → d0 y = HS m c y ∧ d1 y = YU m c y ∧ d2 y = YD m c y

theorem good_zero (c : Dev nD) (d0 : Vec F S64x4096 .f32) (d1 d2 : Vec F S64x4096 .bf16) : Good m c 0 d0 d1 d2 :=
  fun y h => absurd h (by omega)

/-- From position 16 on nothing is left to fill. -/
theorem good_keep (c : Dev nD) (n : ℕ) (hn : 16 ≤ n) (d0 : Vec F S64x4096 .f32) (d1 d2 : Vec F S64x4096 .bf16)
    (h : Good m c n d0 d1 d2) : Good m c (n + 1) d0 d1 d2 :=
  fun y _ => h y (by have h1 := ValueIdx.idx2_lt1 y; omega)

/-- From position 16 on the three buffers are the filled ones. -/
theorem good_full (c : Dev nD) (n : ℕ) (hn : 16 ≤ n) (d0 : Vec F S64x4096 .f32) (d1 d2 : Vec F S64x4096 .bf16)
    (h : Good m c n d0 d1 d2) : d0 = HS m c ∧ d1 = YU m c ∧ d2 = YD m c :=
  have hy : ∀ y : S64x4096.Idx, (y 1).val < 256 * n := fun y => by have h1 := ValueIdx.idx2_lt1 y; omega
  ⟨funext fun y => (h y (hy y)).1, funext fun y => (h y (hy y)).2.1, funext fun y => (h y (hy y)).2.2⟩

end Cert.KernelIdeal.Hand

end
-- ==== Proof.KI.RunPhase0.lean ====
/-
  The body run once at a point of phase 0 (the first sixteen grid points).
-/
import proofs.«162602_g29257317220555_retrytranche2_756_5_alg».proof.Proof.KI.Carried
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are zero on both axes. -/
theorem hz2 : (![0, 0] : Fin 2 → ℕ) = fun _ => 0 := by
  funext a; match a with | ⟨0, _⟩ => rfl | ⟨1, _⟩ => rfl

set_option maxHeartbeats 2000000 in
/-- The body at a phase-0 point, on whole memrefs: the six input blocks and the output window's buffer are handed
    back as they were; each scratch buffer comes back with the point's 64 × 256 slab overwritten by the payload of
    the activations' block and the matching weight block, and is otherwise as it was. -/
theorem run_phase0 (c : Dev nD) (i : grid0.Coords) (arg2 : Memref sig .tc .vmem S64x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S64x256 .f32) (harg8 : arg8.IsWhole) (arg9 : Memref sig .tc .vmem S64x4096 .f32) (harg9 : arg9.IsWhole) (arg10 : Memref sig .tc .vmem S64x4096 .bf16) (harg10 : arg10.IsWhole) (arg11 : Memref sig .tc .vmem S64x4096 .bf16) (harg11 : arg11.IsWhole) (hc0 : inPhase0 i) (hc1 : ¬inPhase1 i)
    (x0 : Vec F S64x4096 .f32) (x1 : Vec F S256x4096 .f32) (x2 : Vec F S256x4096 .f32) (x3 : Vec F S256x4096 .f32) (x4 : Vec F S4096x256 .f32) (x5 : Vec F S4096x256 .f32)
    (d6 : Vec F S64x256 .f32) (ds0 : Vec F S64x4096 .f32) (ds1 : Vec F S64x4096 .bf16) (ds2 : Vec F S64x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare ds1 ∗ owns (c : Thread nD τ) arg11 fullShare ds2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6
                ∗ owns (c : Thread nD τ) arg9 fullShare (slab (k0_off1 i) ds0 (k0_pay2 x0 x1))
                ∗ owns (c : Thread nD τ) arg10 fullShare (slab (k0_off1 i) ds1 (k0_pay3 x0 x2))
                ∗ owns (c : Thread nD τ) arg11 fullShare (slab (k0_off1 i) ds2 (k0_pay4 x0 x3))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; swap; · iexact HS0
      ipureintro
      simp only [View.readAt_eq_ld, harg2.read_unread, harg3.read_unread, View.ld_unit_zero (S := S64x4096) hz2, View.ld_unit_zero (S := S256x4096) hz2]
      exact read_slab arg9 harg9 (k0_off1 i) _ ds0 _
    isplitl [HS1]
    · iexists _; isplitr; swap; · iexact HS1
      ipureintro
      simp only [View.readAt_eq_ld, harg2.read_unread, harg4.read_unread, View.ld_unit_zero (S := S64x4096) hz2, View.ld_unit_zero (S := S256x4096) hz2]
      exact read_slab arg10 harg10 (k0_off1 i) _ ds1 _
    iexists _; isplitr; swap; · iexact HS2
    ipureintro
    simp only [View.readAt_eq_ld, harg2.read_unread, harg5.read_unread, View.ld_unit_zero (S := S64x4096) hz2, View.ld_unit_zero (S := S256x4096) hz2]
    exact read_slab arg11 harg11 (k0_off1 i) _ ds2 _

end Cert.KernelIdeal.Hand

end
-- ==== Proof.KI.RunPhase1.lean ====
/-
  The body run once at a point of phase 1 (the last sixteen grid points).
-/
import proofs.«162602_g29257317220555_retrytranche2_756_5_alg».proof.Proof.KI.Carried
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are zero on both axes. -/
theorem hz2' : (![0, 0] : Fin 2 → ℕ) = fun _ => 0 := by
  funext a; match a with | ⟨0, _⟩ => rfl | ⟨1, _⟩ => rfl

set_option maxHeartbeats 2000000 in
/-- The body at a phase-1 point, on whole memrefs: the six input blocks and the three scratch buffers are handed
    back as they were; the output window's buffer, whatever it held, comes back holding the point's result — the
    slab of the first scratch at the point's columns, plus tanh of the second scratch against the fifth block, plus
    tanh of the third scratch against the sixth block. -/
theorem run_phase1 (c : Dev nD) (i : grid0.Coords) (arg2 : Memref sig .tc .vmem S64x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S64x256 .f32) (harg8 : arg8.IsWhole) (arg9 : Memref sig .tc .vmem S64x4096 .f32) (harg9 : arg9.IsWhole) (arg10 : Memref sig .tc .vmem S64x4096 .bf16) (harg10 : arg10.IsWhole) (arg11 : Memref sig .tc .vmem S64x4096 .bf16) (harg11 : arg11.IsWhole) (hc0 : ¬inPhase0 i) (hc1 : inPhase1 i)
    (x0 : Vec F S64x4096 .f32) (x1 : Vec F S256x4096 .f32) (x2 : Vec F S256x4096 .f32) (x3 : Vec F S256x4096 .f32) (x4 : Vec F S4096x256 .f32) (x5 : Vec F S4096x256 .f32)
    (d6 : Vec F S64x256 .f32) (ds0 : Vec F S64x4096 .f32) (ds1 : Vec F S64x4096 .bf16) (ds2 : Vec F S64x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare ds1 ∗ owns (c : Thread nD τ) arg11 fullShare ds2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k0_pay5 ds1 x4 ds2 x5 (View.ld ds0 (Rect.unit (s := S64x4096) (k0_off2 i) S64x256.size (k0_off2_inb i hc1))))
                ∗ owns (c : Thread nD τ) arg9 fullShare ds0 ∗ owns (c : Thread nD τ) arg10 fullShare ds1 ∗ owns (c : Thread nD τ) arg11 fullShare ds2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      simp only [View.readAt_eq_ld, harg6.read_unread, harg7.read_unread, harg9.read_unread, harg10.read_unread, harg11.read_unread,
        View.ld_unit_zero (S := S64x4096) hz2', View.ld_unit_zero (S := S4096x256) hz2']
      exact read_whole arg8 harg8 _ d6 _
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Hand

end
-- ==== Proof.KI.GoodStep.lean ====
/-
  One phase-0 point extends what the three scratch buffers carry: after the point at position t stores its three
  64 × 256 slabs at columns [256 t, 256 t + 256), every column below 256 (t + 1) holds its final value.
-/
import proofs.«162602_g29257317220555_retrytranche2_756_5_alg».proof.Proof.KI.Carried

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The point at position t < 16 overwrites columns [256 t, 256 t + 256) of the three buffers with its three
    payloads. An index whose column lies in that range is inside the slab, at row the same and column minus 256 t,
    which is the column modulo 256, and the point that fills its column (the column divided by 256) is t: the slab's
    value there is the final value by definition. An index whose column is below 256 t is outside the slab and keeps
    the value it had, final by hypothesis. -/
theorem good_step (c : Dev nD) (t : Fin cfg0.N) (ht : t.val < 16) (d0 : Vec F S64x4096 .f32) (d1 d2 : Vec F S64x4096 .bf16)
    (h : Good m c t.val d0 d1 d2) :
    Good m c (t.val + 1)
      (slab (k0_off1 (grid0.coords t)) d0 (k0_pay2 (iblk m c 0 t) (iblk m c 1 t)))
      (slab (k0_off1 (grid0.coords t)) d1 (k0_pay3 (iblk m c 0 t) (iblk m c 2 t)))
      (slab (k0_off1 (grid0.coords t)) d2 (k0_pay4 (iblk m c 0 t) (iblk m c 3 t))) := by
  intro y hy
  have hoff : k0_off1 (grid0.coords t) = ![0, 256 * t.val] := by
    rw [off1_eq t, Nat.mod_eq_of_lt ht]
  rw [hoff]
  have hy1 : (y 1).val < 256 * (t.val + 1) := hy
  by_cases hc : (y 1).val < 256 * t.val
  · -- the column is below the slab: the old values
    have hn : ¬ ∀ a, (![0, 256 * t.val] : Fin 2 → ℕ) a ≤ (y a).val
        ∧ (y a).val < (![0, 256 * t.val] : Fin 2 → ℕ) a + S64x256.size a := by
      intro hh
      have h1 : 256 * t.val ≤ (y 1).val := (hh 1).1
      omega
    unfold slab
    rw [dif_neg hn, dif_neg hn, dif_neg hn]
    exact h y hc
  · -- the column is in the slab: the payloads of the point's blocks
    have hin : ∀ a, (![0, 256 * t.val] : Fin 2 → ℕ) a ≤ (y a).val
        ∧ (y a).val < (![0, 256 * t.val] : Fin 2 → ℕ) a + S64x256.size a := by
      intro a
      match a with
      | ⟨0, _⟩ =>
        have h0 : (y 0).val < 64 := ValueIdx.idx2_lt0 y
        show 0 ≤ (y 0).val ∧ (y 0).val < 0 + 64
        omega
      | ⟨1, _⟩ =>
        show 256 * t.val ≤ (y 1).val ∧ (y 1).val < 256 * t.val + 256
        omega
    have e1 : colPt y = t := Fin.ext (by show (y 1).val / 256 = t.val; omega)
    have e2 : colIn y
        = Rect.unitLocal (s := S64x4096) (off := ![0, 256 * t.val]) (size := S64x256.size) y hin := by
      funext a
      match a with
      | ⟨0, _⟩ => exact Fin.ext (by show (y 0).val = (y 0).val - 0; omega)
      | ⟨1, _⟩ => exact Fin.ext (by show (y 1).val % 256 = (y 1).val - 256 * t.val; omega)
    unfold slab
    rw [dif_pos hin, dif_pos hin, dif_pos hin]
    unfold HS YU YD
    rw [e1, e2]
    exact ⟨rfl, rfl, rfl⟩

end Cert.KernelIdeal.Hand

end
-- ==== Proof.KI.Frame.lean ====
/-
  The frame of the one region: the invariant the three scratch buffers carry from point to point, the proof data,
  the body obligation at a generic point (phase 0 or phase 1), and the run.
-/
import proofs.«162602_g29257317220555_retrytranche2_756_5_alg».proof.Proof.KI.RunPhase0
import proofs.«162602_g29257317220555_retrytranche2_756_5_alg».proof.Proof.KI.RunPhase1
import proofs.«162602_g29257317220555_retrytranche2_756_5_alg».proof.Proof.KI.GoodStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant carried from point to point -/

/-- Before the point at position `n`: the three scratch buffers at contents whose columns below `256 n` are final, and
    the generator register at some state. -/
def PhiS (c : Dev nD) (n : ℕ) : sProp 𝕄 :=
  iprop((∃ d0 : Vec F S64x4096 .f32, ∃ d1 : Vec F S64x4096 .bf16, ∃ d2 : Vec F S64x4096 .bf16,
      ⌜Good m c n d0 d1 d2⌝ ∗ owns (c : Thread nD τ) sc0 fullShare d0 ∗ owns (c : Thread nD τ) sc1 fullShare d1 ∗ owns (c : Thread nD τ) sc2 fullShare d2)
    ∗ (∃ r, prngReg c r))

/-! ## The proof data -/

/-- The arrays as the region finds them; after the body at point `t` each input's buffer at its block and the output
    window's at the point's result; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = OUT m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The point's result with the slab's offsets as the kernel computes them. -/
theorem OUT_eq (c : Dev nD) (t : Fin cfg0.N) (h1 : inPhase1 (grid0.coords t)) :
    OUT m c t = k0_pay5 (YU m c) (iblk m c 4 t) (YD m c) (iblk m c 5 t)
      (View.ld (HS m c) (Rect.unit (s := S64x4096) (k0_off2 (grid0.coords t)) S64x256.size (k0_off2_inb (grid0.coords t) h1))) := by
  unfold OUT
  rw [ld_congr_off (HS m c) S64x256.size (off2_eq t) (k0_off2_inb (grid0.coords t) h1) (off_inb t)]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. In phase 0 the scratch buffers, handed over with their columns below `256 t` final, come
    back with the point's slab written, so with their columns below `256 (t + 1)` final; the output window's buffer
    is idle and comes back as it was. In phase 1 the scratch buffers are the filled ones, come back untouched, and the
    output window's buffer comes back at the point's result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 32 := lt_of_lt_of_eq t.isLt (show cfg0.N = 32 from N_0)
  rw [show (dats m 0 c).leavesExact 0 t = owns (c : Thread nD τ) (mr0 t) fullShare ((dats m 0 c).after 0 t) from by
    unfold Dat.leavesExact; rw [live0 t], after0]
  rw [show (dats m 0 c).leavesExact 1 t = owns (c : Thread nD τ) (mr1 t) fullShare ((dats m 0 c).after 1 t) from by
    unfold Dat.leavesExact; rw [live1 t], after1]
  rw [show (dats m 0 c).leavesExact 2 t = owns (c : Thread nD τ) (mr2 t) fullShare ((dats m 0 c).after 2 t) from by
    unfold Dat.leavesExact; rw [live2 t], after2]
  rw [show (dats m 0 c).leavesExact 3 t = owns (c : Thread nD τ) (mr3 t) fullShare ((dats m 0 c).after 3 t) from by
    unfold Dat.leavesExact; rw [live3 t], after3]
  rw [show (dats m 0 c).leavesExact 4 t = owns (c : Thread nD τ) (mr4 t) fullShare ((dats m 0 c).after 4 t) from by
    unfold Dat.leavesExact; rw [live4 t], after4]
  rw [show (dats m 0 c).leavesExact 5 t = owns (c : Thread nD τ) (mr5 t) fullShare ((dats m 0 c).after 5 t) from by
    unfold Dat.leavesExact; rw [live5 t], after5]
  by_cases h0 : t.val < 16
  · have hc0 : inPhase0 (grid0.coords t) := (inPhase0_iff t).mpr h0
    have hc1 : ¬inPhase1 (grid0.coords t) := fun h => by have := (inPhase1_iff t).mp h; omega
    rw [Dat.leavesExact_idle (dats m 0 c) 6 t (idle6 t h0) (noflush6 t h0)]
    iintro ⟨⟨⟨%d0, %d1, %d2, %hg, HS0, HS1, HS2⟩, Hg⟩, Ho, ⟨%e0, H0⟩, ⟨%e1, H1⟩, ⟨%e2, H2⟩, ⟨%e3, H3⟩, ⟨%e4, H4⟩, ⟨%e5, H5⟩, ⟨%e6, H6⟩⟩
    iapply ((run_phase0 c (grid0.coords t) _ _ _ _ _ _ _ _ _ _ _ _ _ _ _ _ _ _ _ _ hc0 hc1 (iblk m c 0 t) (iblk m c 1 t) (iblk m c 2 t) (iblk m c 3 t) (iblk m c 4 t) (iblk m c 5 t) ((dats m 0 c).before 6 t e6) d0 d1 d2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr
        · ipureintro; exact good_step m c t h0 d0 d1 d2 hg
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 16 ≤ t.val := by omega
    have hc0 : ¬inPhase0 (grid0.coords t) := fun h => h0 ((inPhase0_iff t).mp h)
    have hc1 : inPhase1 (grid0.coords t) := (inPhase1_iff t).mpr h1
    rw [show (dats m 0 c).leavesExact 6 t = owns (c : Thread nD τ) (mr6 t) fullShare ((dats m 0 c).after 6 t) from by
      unfold Dat.leavesExact; rw [live6 t h1], after6, OUT_eq m c t hc1]
    iintro ⟨⟨⟨%d0, %d1, %d2, %hg, HS0, HS1, HS2⟩, Hg⟩, Ho, ⟨%e0, H0⟩, ⟨%e1, H1⟩, ⟨%e2, H2⟩, ⟨%e3, H3⟩, ⟨%e4, H4⟩, ⟨%e5, H5⟩, ⟨%e6, H6⟩⟩
    obtain ⟨rfl, rfl, rfl⟩ := good_full m c t.val h1 d0 d1 d2 hg
    iapply ((run_phase1 c (grid0.coords t) _ _ _ _ _ _ _ _ _ _ _ _ _ _ _ _ _ _ _ _ hc0 hc1 (iblk m c 0 t) (iblk m c 1 t) (iblk m c 2 t) (iblk m c 3 t) (iblk m c 4 t) (iblk m c 5 t) ((dats m 0 c).before 6 t e6) (HS m c) (YU m c) (YD m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr
        · ipureintro; exact good_keep m c t.val h1 _ _ _ hg
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no column is asked to be final yet. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩, ⟨%d2, HS2⟩⟩, Hg⟩
  isplitl [HS0 HS1 HS2]
  · iexists d0, d1, d2
    isplitr
    · ipureintro; exact good_zero m c d0 d1 d2
    isplitl [HS0]; · iexact HS0
    isplitl [HS1]; · iexact HS1
    iexact HS2
  iexact Hg

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d0, %d1, %d2, %hg, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what
    the library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.BlockRead.lean ====
/-
  What each input window's block holds, read at an index, in terms of the argument arrays.

  The grid is 2 × 16 walked row by row, so point t has coordinates (t / 16, t % 16). Window 0 is the whole
  64 × 4096 array of activations at every point. Windows 1, 2, 3 are blocks of 256 rows of three of the square
  arrays, at block row t in the first sixteen points (and 15 afterwards). Windows 4, 5 are blocks of 256 columns of
  the other two square arrays, at block column t − 16 in the last sixteen points (and 0 before). An element of a
  block sits in its array, on each axis, at the block index times the block's extent plus its own coordinate.
-/
import proofs.«162602_g29257317220555_retrytranche2_756_5_alg».proof.Proof.KI.Shared
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

variable (m : (ℓ : Loc nD τ sig) → Buf (Elt F) ℓ)

/-! ## The index maps, decided over the grid -/

/-- Window 0's block index is (0, 0) at every point. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Windows 1, 2, 3: block row t in the first sixteen points, 15 afterwards; block column 0. -/
theorem idx1 : ∀ t : Fin cfg0.N, win0_1.index t (0 : Fin 2) = (if t.val < 16 then t.val else 15) ∧ win0_1.index t (1 : Fin 2) = 0 :=
  (by decide +kernel : ∀ t : Fin grid0.N, win0_1.index t (0 : Fin 2) = (if t.val < 16 then t.val else 15) ∧ win0_1.index t (1 : Fin 2) = 0)
theorem idx2 : ∀ t : Fin cfg0.N, win0_2.index t (0 : Fin 2) = (if t.val < 16 then t.val else 15) ∧ win0_2.index t (1 : Fin 2) = 0 :=
  (by decide +kernel : ∀ t : Fin grid0.N, win0_2.index t (0 : Fin 2) = (if t.val < 16 then t.val else 15) ∧ win0_2.index t (1 : Fin 2) = 0)
theorem idx3 : ∀ t : Fin cfg0.N, win0_3.index t (0 : Fin 2) = (if t.val < 16 then t.val else 15) ∧ win0_3.index t (1 : Fin 2) = 0 :=
  (by decide +kernel : ∀ t : Fin grid0.N, win0_3.index t (0 : Fin 2) = (if t.val < 16 then t.val else 15) ∧ win0_3.index t (1 : Fin 2) = 0)
/-- Windows 4, 5: block row 0; block column 0 in the first sixteen points, t − 16 afterwards. -/
theorem idx4 : ∀ t : Fin cfg0.N, win0_4.index t (0 : Fin 2) = 0 ∧ win0_4.index t (1 : Fin 2) = (if t.val < 16 then 0 else t.val - 16) :=
  (by decide +kernel : ∀ t : Fin grid0.N, win0_4.index t (0 : Fin 2) = 0 ∧ win0_4.index t (1 : Fin 2) = (if t.val < 16 then 0 else t.val - 16))
theorem idx5 : ∀ t : Fin cfg0.N, win0_5.index t (0 : Fin 2) = 0 ∧ win0_5.index t (1 : Fin 2) = (if t.val < 16 then 0 else t.val - 16) :=
  (by decide +kernel : ∀ t : Fin grid0.N, win0_5.index t (0 : Fin 2) = 0 ∧ win0_5.index t (1 : Fin 2) = (if t.val < 16 then 0 else t.val - 16))

/-! ## The blocks, read at an index -/

/-- Window 0's block is the whole array of activations. -/
theorem blk0_apply (c : Dev nD) (t : Fin cfg0.N) (p : Fin 64) (k : Fin 4096) :
    iblk m c 0 t (ix2 p k) = V m c main_arg0 (ix2 p k) := by
  obtain ⟨e0, e1⟩ := idx0 t
  show V m c main_arg0 (((cfg0.win 0).blk t).view.emb (ix2 p k)) = _
  refine congrArg (V m c main_arg0) (funext fun a => Fin.ext ?_)
  match a with
  | ⟨0, _⟩ => show win0_0.index t (0 : Fin 2) * 64 + 1 * p.val = p.val; omega
  | ⟨1, _⟩ => show win0_0.index t (1 : Fin 2) * 4096 + 1 * k.val = k.val; omega

/-- Window 1's block at one of the first sixteen points: rows 256 t … 256 t + 255 of the first weight array. -/
theorem blk1_apply (c : Dev nD) (t : Fin cfg0.N) (ht : t.val < 16) (q : Fin 256) (k : Fin 4096) :
    iblk m c 1 t (ix2 q k) = V m c main_arg3 (ix2 (⟨256 * t.val + q.val, by omega⟩ : Fin 4096) k) := by
  obtain ⟨e0, e1⟩ := idx1 t
  rw [if_pos ht] at e0
  show V m c main_arg3 (((cfg0.win 1).blk t).view.emb (ix2 q k)) = _
  refine congrArg (V m c main_arg3) (funext fun a => Fin.ext ?_)
  match a with
  | ⟨0, _⟩ => show win0_1.index t (0 : Fin 2) * 256 + 1 * q.val = 256 * t.val + q.val; omega
  | ⟨1, _⟩ => show win0_1.index t (1 : Fin 2) * 4096 + 1 * k.val = k.val; omega

/-- Window 2's block at one of the first sixteen points: rows 256 t … 256 t + 255 of the second weight array. -/
theorem blk2_apply (c : Dev nD) (t : Fin cfg0.N) (ht : t.val < 16) (q : Fin 256) (k : Fin 4096) :
    iblk m c 2 t (ix2 q k) = V m c main_arg4 (ix2 (⟨256 * t.val + q.val, by omega⟩ : Fin 4096) k) := by
  obtain ⟨e0, e1⟩ := idx2 t
  rw [if_pos ht] at e0
  show V m c main_arg4 (((cfg0.win 2).blk t).view.emb (ix2 q k)) = _
  refine congrArg (V m c main_arg4) (funext fun a => Fin.ext ?_)
  match a with
  | ⟨0, _⟩ => show win0_2.index t (0 : Fin 2) * 256 + 1 * q.val = 256 * t.val + q.val; omega
  | ⟨1, _⟩ => show win0_2.index t (1 : Fin 2) * 4096 + 1 * k.val = k.val; omega

/-- Window 3's block at one of the first sixteen points: rows 256 t … 256 t + 255 of the third weight array. -/
theorem blk3_apply (c : Dev nD) (t : Fin cfg0.N) (ht : t.val < 16) (q : Fin 256) (k : Fin 4096) :
    iblk m c 3 t (ix2 q k) = V m c main_arg5 (ix2 (⟨256 * t.val + q.val, by omega⟩ : Fin 4096) k) := by
  obtain ⟨e0, e1⟩ := idx3 t
  rw [if_pos ht] at e0
  show V m c main_arg5 (((cfg0.win 3).blk t).view.emb (ix2 q k)) = _
  refine congrArg (V m c main_arg5) (funext fun a => Fin.ext ?_)
  match a with
  | ⟨0, _⟩ => show win0_3.index t (0 : Fin 2) * 256 + 1 * q.val = 256 * t.val + q.val; omega
  | ⟨1, _⟩ => show win0_3.index t (1 : Fin 2) * 4096 + 1 * k.val = k.val; omega

/-- Window 4's block at one of the last sixteen points: columns 256 (t − 16) … 256 (t − 16) + 255 of the first square operator. -/
theorem blk4_apply (c : Dev nD) (t : Fin cfg0.N) (ht : 16 ≤ t.val) (l : Fin 4096) (q : Fin 256) :
    iblk m c 4 t (ix2 l q) = V m c main_arg1 (ix2 l (⟨256 * (t.val - 16) + q.val, by have := t.isLt; have : cfg0.N = 32 := N_0; omega⟩ : Fin 4096)) := by
  obtain ⟨e0, e1⟩ := idx4 t
  rw [if_neg (by omega)] at e1
  show V m c main_arg1 (((cfg0.win 4).blk t).view.emb (ix2 l q)) = _
  refine congrArg (V m c main_arg1) (funext fun a => Fin.ext ?_)
  match a with
  | ⟨0, _⟩ => show win0_4.index t (0 : Fin 2) * 4096 + 1 * l.val = l.val; omega
  | ⟨1, _⟩ => show win0_4.index t (1 : Fin 2) * 256 + 1 * q.val = 256 * (t.val - 16) + q.val; omega

/-- Window 5's block at one of the last sixteen points: columns 256 (t − 16) … 256 (t − 16) + 255 of the second square operator. -/
theorem blk5_apply (c : Dev nD) (t : Fin cfg0.N) (ht : 16 ≤ t.val) (l : Fin 4096) (q : Fin 256) :
    iblk m c 5 t (ix2 l q) = V m c main_arg2 (ix2 l (⟨256 * (t.val - 16) + q.val, by have := t.isLt; have : cfg0.N = 32 := N_0; omega⟩ : Fin 4096)) := by
  obtain ⟨e0, e1⟩ := idx5 t
  rw [if_neg (by omega)] at e1
  show V m c main_arg2 (((cfg0.win 5).blk t).view.emb (ix2 l q)) = _
  refine congrArg (V m c main_arg2) (funext fun a => Fin.ext ?_)
  match a with
  | ⟨0, _⟩ => show win0_5.index t (0 : Fin 2) * 4096 + 1 * l.val = l.val; omega
  | ⟨1, _⟩ => show win0_5.index t (1 : Fin 2) * 256 + 1 * q.val = 256 * (t.val - 16) + q.val; omega

end Cert.KernelIdeal.Hand

end
-- ==== Proof.Spec.lean ====
/-
  The layer as one function of its six argument arrays, on the extended reals.

  With X of shape [64, 4096] and five square matrices of order 4096, the result at (i, j) is
    tanh((X·Wsᵀ)(i, j)) + tanh(((X·Wuᵀ)·Lu)(i, j)) + tanh(((X·Wdᵀ)·Ld)(i, j)),
  the first two terms added first.  `proj` is one entry of X·Wᵀ, `conv` one entry of (X·Wᵀ)·L.
-/
import Idealize.ShloMosaic.PureOps.Ideal
import Idealize.ShloMosaic.Lib.ValueIdx

noncomputable section

open Idealize.ShloMosaic Idealize.ShloMosaic.ValueIdx
open scoped BigOperators

namespace Cert.Spec

/-- The shape of the activations and of the result. -/
abbrev SX : Shape := ⟨2, ![64, 4096]⟩
/-- The shape of each of the five square operands. -/
abbrev SW : Shape := ⟨2, ![4096, 4096]⟩

/-- Entry (i, l) of X·Wᵀ: the sum over k of X(i, k)·W(l, k). -/
def proj (X : FVec Ideal SX .f32) (W : FVec Ideal SW .f32) (i : Fin 64) (l : Fin 4096) : EReal :=
  ∑ k : Fin 4096, X (ix2 i k) * W (ix2 l k)

/-- Entry (i, j) of (X·Wᵀ)·L: the sum over l of (X·Wᵀ)(i, l)·L(l, j). -/
def conv (X : FVec Ideal SX .f32) (W L : FVec Ideal SW .f32) (i : Fin 64) (j : Fin 4096) : EReal :=
  ∑ l : Fin 4096, proj X W i l * L (ix2 l j)

/-- The result at (i, j). -/
def cell (X : FVec Ideal SX .f32) (Lu Ld Ws Wu Wd : FVec Ideal SW .f32) (i : Fin 64) (j : Fin 4096) : EReal :=
  (Ideal.tanh (proj X Ws i j) + Ideal.tanh (conv X Wu Lu i j)) + Ideal.tanh (conv X Wd Ld i j)

/-- The whole result array. -/
def G (X : FVec Ideal SX .f32) (Lu Ld Ws Wu Wd : FVec Ideal SW .f32) : FVec Ideal SX .f32 :=
  fun y => cell X Lu Ld Ws Wu Wd (y 0) (y 1)

theorem G_apply (X : FVec Ideal SX .f32) (Lu Ld Ws Wu Wd : FVec Ideal SW .f32) (i : Fin 64) (j : Fin 4096) :
    G X Lu Ld Ws Wu Wd (ix2 i j) = cell X Lu Ld Ws Wu Wd i j := rfl

end Cert.Spec

end
-- ==== Proof.KI.SpecAt.lean ====
/-
  The specification evaluated at the six argument arrays as the region finds them.
-/
import proofs.«162602_g29257317220555_retrytranche2_756_5_alg».proof.Proof.KI.Shared
import proofs.«162602_g29257317220555_retrytranche2_756_5_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The layer's result as one function of the argument arrays on core `c`. -/
def GV (c : Dev nD) : FVec Ideal S64x4096 .f32 :=
  Cert.Spec.G (V m c main_arg0) (V m c main_arg1) (V m c main_arg2) (V m c main_arg3) (V m c main_arg4) (V m c main_arg5)

theorem GV_apply (c : Dev nD) (p : Fin 64) (q : Fin 4096) :
    GV m c (ValueIdx.ix2 p q) = Cert.Spec.cell (V m c main_arg0) (V m c main_arg1) (V m c main_arg2) (V m c main_arg3) (V m c main_arg4) (V m c main_arg5) p q := rfl

end Cert.KernelIdeal.Hand

end
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.PayValue.lean ====
import proofs.«162602_g29257317220555_retrytranche2_756_5_alg».proof.Proof.Gen.KernelIdeal.Skeleton
import proofs.«162602_g29257317220555_retrytranche2_756_5_alg».proof.Proof.LibMatmulRows
import proofs.«162602_g29257317220555_retrytranche2_756_5_alg».proof.Proof.LibPlainMatmul
import Idealize.ShloMosaic.Lib.ValueIdx
import Idealize.ShloMosaic.Lib.Pipeline.Value
import Idealize.ShloMosaic.PureOps.Ideal.Laws

/-!
  The five values the idealized kernel stores, read at an index, at the ideal values (the extended reals):
  each is a matrix product accumulated into zero — a sum over the contracted coordinate of products of
  entries — under the pointwise operations around it. At the ideal values a truncation to a narrower
  format is the identity, a shape cast to the same shape is the identity, and the hyperbolic tangent of a
  vector is taken entrywise.
-/

noncomputable section

namespace Cert.KernelIdeal.PayValue

open Cert.KernelIdeal Idealize.ShloMosaic Idealize.ShloMosaic.ValueIdx

/-- The truncated first operand, read at an index: the operand's entry. -/
theorem pay1_apply (x0 : Vec Ideal S64x4096 .f32) (j : S64x4096.Idx) :
    Gen.k0_pay1 (F := Ideal) x0 j = x0 j := rfl

/-- The product contracting the last axis of both operands, into zero, at (i, q): the sum over the
    contracted coordinate of the products of the two rows' entries. -/
theorem rows_apply (A : FVec Ideal S64x4096 .bf16) (B : FVec Ideal S256x4096 .bf16) (i : Fin 64) (q : Fin 256) :
    matmul (F := Ideal) dot_S64x4096_S256x4096_S64x256_1_1_0_0_n_n none A B
        (constant (F := Ideal) S64x256 .f32 0x00000000#32) (ix2 i q)
      = ∑ k : Fin 4096, A (ix2 i k) * B (ix2 q k) :=
  Cert.LibMatmulRows.matmul_rows_apply (m := 64) (n := 256) (k := 4096)
    Gen.dot_S64x4096_S256x4096_S64x256_1_1_0_0_n_n_wf none A B i q

/-- The plain product of a 64 × 4096 and a 4096 × 256 matrix, into zero, at (i, q): the sum over the
    contracted coordinate of the left's row entry times the right's column entry. -/
theorem plain_apply (A : FVec Ideal S64x4096 .bf16) (B : FVec Ideal S4096x256 .bf16) (i : Fin 64) (q : Fin 256) :
    matmul (F := Ideal) dot_S64x4096_S4096x256_S64x256_1_0_0_1_n_n none A B
        (constant (F := Ideal) S64x256 .f32 0x00000000#32) (ix2 i q)
      = ∑ l : Fin 4096, A (ix2 i l) * B (ix2 l q) :=
  Cert.LibPlainMatmul.matmul_zero_apply (M := 64) (K := 4096) (N := 256)
    dot_S64x4096_S4096x256_S64x256_1_0_0_1_n_n rfl rfl rfl rfl rfl rfl none A B i q

theorem pay2_apply (x0 : Vec Ideal S64x4096 .f32) (x1 : Vec Ideal S256x4096 .f32) (i : Fin 64) (q : Fin 256) :
    Gen.k0_pay2 (F := Ideal) x0 x1 (ix2 i q)
      = Ideal.tanh (∑ k : Fin 4096, x0 (ix2 i k) * x1 (ix2 q k)) := by
  unfold Gen.k0_pay2
  refine (congrFun (shapeCast_self _ _) (ix2 i q)).trans ?_
  refine congrArg Ideal.tanh ?_
  exact rows_apply _ _ i q

theorem pay3_apply (x0 : Vec Ideal S64x4096 .f32) (x2 : Vec Ideal S256x4096 .f32) (i : Fin 64) (q : Fin 256) :
    Gen.k0_pay3 (F := Ideal) x0 x2 (ix2 i q) = ∑ k : Fin 4096, x0 (ix2 i k) * x2 (ix2 q k) := by
  unfold Gen.k0_pay3
  refine (congrFun (shapeCast_self _ _) (ix2 i q)).trans ?_
  exact rows_apply _ _ i q

theorem pay4_apply (x0 : Vec Ideal S64x4096 .f32) (x3 : Vec Ideal S256x4096 .f32) (i : Fin 64) (q : Fin 256) :
    Gen.k0_pay4 (F := Ideal) x0 x3 (ix2 i q) = ∑ k : Fin 4096, x0 (ix2 i k) * x3 (ix2 q k) := by
  unfold Gen.k0_pay4
  refine (congrFun (shapeCast_self _ _) (ix2 i q)).trans ?_
  exact rows_apply _ _ i q

theorem pay5_apply (yu : Vec Ideal S64x4096 .bf16) (lu : Vec Ideal S4096x256 .f32)
    (yd : Vec Ideal S64x4096 .bf16) (ld : Vec Ideal S4096x256 .f32) (hs : Vec Ideal S64x256 .f32)
    (i : Fin 64) (q : Fin 256) :
    Gen.k0_pay5 (F := Ideal) yu lu yd ld hs (ix2 i q)
      = (hs (ix2 i q) + Ideal.tanh (∑ l : Fin 4096, yu (ix2 i l) * lu (ix2 l q)))
          + Ideal.tanh (∑ l : Fin 4096, yd (ix2 i l) * ld (ix2 l q)) := by
  unfold Gen.k0_pay5
  refine congrArg₂ (· + ·) (congrArg₂ (· + ·) rfl (congrArg Ideal.tanh ?_)) (congrArg Ideal.tanh ?_)
  · exact plain_apply _ _ i q
  · exact plain_apply _ _ i q

end Cert.KernelIdeal.PayValue

end
-- ==== Proof.KI.OutValue.lean ====
/-
  At the ideal values: what a point of the last sixteen stores into the output window's buffer, read at an index,
  is the layer's result at the corresponding column.

  The three carried buffers, read at (p, l), are one entry of a product of the activations with a weight array's rows
  (under tanh for the first): the point that fills column l is l / 256, the position inside its slab is l % 256,
  and row 256 (l / 256) + l % 256 of the weight array is row l. The stored value at (p, q) of point t is then the
  first buffer at column 256 (t − 16) + q, plus tanh of the second buffer's row p against column 256 (t − 16) + q of
  the first square operator, plus tanh of the third's against the second operator's.
-/
import proofs.«162602_g29257317220555_retrytranche2_756_5_alg».proof.Proof.KI.Carried
import proofs.«162602_g29257317220555_retrytranche2_756_5_alg».proof.Proof.KI.BlockRead
import proofs.«162602_g29257317220555_retrytranche2_756_5_alg».proof.Proof.KI.SpecAt
import proofs.«162602_g29257317220555_retrytranche2_756_5_alg».proof.Proof.PayValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable (m : (ℓ : Loc nD τ sig) → Buf (Elt Ideal) ℓ)

/-- The point that fills column l is one of the first sixteen. -/
theorem colPt_lt (p : Fin 64) (l : Fin 4096) : (colPt (ix2 p l)).val < 16 := by
  show l.val / 256 < 16
  have := l.isLt
  omega

/-- Row 256 (l / 256) + l % 256 is row l. -/
theorem row_eq (p : Fin 64) (l : Fin 4096) (h : 256 * (colPt (ix2 p l)).val + l.val % 256 < 4096) :
    (⟨256 * (colPt (ix2 p l)).val + l.val % 256, h⟩ : Fin 4096) = l :=
  Fin.ext (by show 256 * (l.val / 256) + l.val % 256 = l.val; omega)

/-- The first carried buffer at (p, l): tanh of entry (p, l) of the activations against the first weight array's rows. -/
theorem HS_apply (c : Dev nD) (p : Fin 64) (l : Fin 4096) :
    HS m c (ix2 p l) = Ideal.tanh (Cert.Spec.proj (V m c main_arg0) (V m c main_arg3) p l) := by
  refine (Cert.KernelIdeal.PayValue.pay2_apply _ _ p
    (⟨l.val % 256, Nat.mod_lt _ (by norm_num)⟩ : Fin 256)).trans ?_
  refine congrArg Ideal.tanh ?_
  unfold Cert.Spec.proj
  refine Finset.sum_congr rfl fun k _ => ?_
  rw [blk0_apply m c _ p k, blk1_apply m c _ (colPt_lt p l) _ k, row_eq p l]

/-- The second carried buffer at (p, l): entry (p, l) of the activations against the second weight array's rows. -/
theorem YU_apply (c : Dev nD) (p : Fin 64) (l : Fin 4096) :
    YU m c (ix2 p l) = Cert.Spec.proj (V m c main_arg0) (V m c main_arg4) p l := by
  refine (Cert.KernelIdeal.PayValue.pay3_apply _ _ p
    (⟨l.val % 256, Nat.mod_lt _ (by norm_num)⟩ : Fin 256)).trans ?_
  unfold Cert.Spec.proj
  refine Finset.sum_congr rfl fun k _ => ?_
  rw [blk0_apply m c _ p k, blk2_apply m c _ (colPt_lt p l) _ k, row_eq p l]

/-- The third carried buffer at (p, l): entry (p, l) of the activations against the third weight array's rows. -/
theorem YD_apply (c : Dev nD) (p : Fin 64) (l : Fin 4096) :
    YD m c (ix2 p l) = Cert.Spec.proj (V m c main_arg0) (V m c main_arg5) p l := by
  refine (Cert.KernelIdeal.PayValue.pay4_apply _ _ p
    (⟨l.val % 256, Nat.mod_lt _ (by norm_num)⟩ : Fin 256)).trans ?_
  unfold Cert.Spec.proj
  refine Finset.sum_congr rfl fun k _ => ?_
  rw [blk0_apply m c _ p k, blk3_apply m c _ (colPt_lt p l) _ k, row_eq p l]

/-- What a point t of the last sixteen stores, at (p, q): the layer's result at (p, 256 (t − 16) + q). -/
theorem OUT_apply (c : Dev nD) (t : Fin cfg0.N) (ht : 16 ≤ t.val) (p : Fin 64) (q : Fin 256) :
    OUT m c t (ix2 p q) = GV m c (ix2 p (⟨256 * (t.val - 16) + q.val, by have := t.isLt; have : cfg0.N = 32 := N_0; have := q.isLt; omega⟩ : Fin 4096)) := by
  have htN : t.val < 32 := by have := t.isLt; have : cfg0.N = 32 := N_0; omega
  refine Eq.trans ?_ (GV_apply m c p _).symm
  unfold OUT
  refine (Cert.KernelIdeal.PayValue.pay5_apply _ _ _ _ _ p q).trans ?_
  unfold Cert.Spec.cell Cert.Spec.conv
  refine congrArg₂ (· + ·) (congrArg₂ (· + ·) ?_ (congrArg Ideal.tanh ?_)) (congrArg Ideal.tanh ?_)
  · -- the first buffer read through the point's slab: column 256 (t % 16) + q, and t % 16 = t − 16
    show HS m c ((Rect.unit (s := S64x4096) ![0, 256 * (t.val % 16)] S64x256.size (off_inb t)).idx (ix2 p q)) = _
    have e : (Rect.unit (s := S64x4096) ![0, 256 * (t.val % 16)] S64x256.size (off_inb t)).idx (ix2 p q)
        = ix2 p (⟨256 * (t.val - 16) + q.val, by have := q.isLt; omega⟩ : Fin 4096) :=
      funext fun a => Fin.ext (by
        match a with
        | ⟨0, _⟩ => show 0 + 1 * p.val = p.val; omega
        | ⟨1, _⟩ => show 256 * (t.val % 16) + 1 * q.val = 256 * (t.val - 16) + q.val; omega)
    rw [e]
    exact HS_apply m c p _
  · refine Finset.sum_congr rfl fun l _ => ?_
    rw [YU_apply m c p l, blk4_apply m c t ht l q]
  · refine Finset.sum_congr rfl fun l _ => ?_
    rw [YD_apply m c p l, blk5_apply m c t ht l q]

end Cert.KernelIdeal.Hand

end
-- ==== Proof.KI.Final.lean ====
/-
  From the output window's blocks to the whole result array, at the ideal values.

  The output window holds 64 × 256 blocks of the 64 × 4096 result array, at block index (0, t − 16) in the last
  sixteen points of the 2 × 16 grid (and (0, 0) before), and a block is written back exactly at those last sixteen
  points. Given that the block the body leaves at such a point is the specification on columns
  256 (t − 16) … 256 (t − 16) + 255, each written block is the specification's block; column j of the array lies in
  the block of point 16 + j / 256, so the sixteen blocks tile the array and the array ends holding the specification.
-/
import proofs.«162602_g29257317220555_retrytranche2_756_5_alg».proof.Proof.KI.Frame
import proofs.«162602_g29257317220555_retrytranche2_756_5_alg».proof.Proof.KI.SpecAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The output window over the grid -/

/-- A block is written back exactly at the last sixteen points. -/
theorem flush6_iff : ∀ t : Fin cfg0.N, (cfg0.win 6).flush t = true ↔ 16 ≤ t.val :=
  (by decide +kernel : ∀ t : Fin grid0.N, win0_6.flush t = true ↔ 16 ≤ t.val)

/-- The output's block index: row 0; column 0 in the first sixteen points, t − 16 afterwards. -/
theorem idx6 : ∀ t : Fin cfg0.N, win0_6.index t (0 : Fin 2) = 0 ∧ win0_6.index t (1 : Fin 2) = (if t.val < 16 then 0 else t.val - 16) :=
  (by decide +kernel : ∀ t : Fin grid0.N, win0_6.index t (0 : Fin 2) = 0 ∧ win0_6.index t (1 : Fin 2) = (if t.val < 16 then 0 else t.val - 16))

/-! ## What a point writes back -/

/-- What a writing point writes back is its block of the specification, once the block the body leaves there is the
    specification on the point's columns. -/
theorem flushed6_eq (c : Dev nD)
    (hOUT : ∀ (t : Fin cfg0.N) (ht : 16 ≤ t.val) (p : Fin 64) (q : Fin 256),
      OUT m c t (ValueIdx.ix2 p q) = GV m c (ValueIdx.ix2 p (⟨256 * (t.val - 16) + q.val, by have := t.isLt; have : cfg0.N = 32 := N_0; have := q.isLt; omega⟩ : Fin 4096)))
    (t : Fin cfg0.N) (hf : (cfg0.win 6).flush t = true) :
    (dats m 0 c).flushed 6 t = ((cfg0.win 6).blk t).view.read (Elt Ideal) (GV m c) := by
  have ht : 16 ≤ t.val := (flush6_iff t).mp hf
  obtain ⟨e0, e1⟩ := idx6 t
  rw [if_neg (by omega)] at e1
  show (cfg0.win 6).cut (grid0.coords t) ((dats m 0 c).after 6 t) = _
  rw [after6]
  funext j
  obtain ⟨p, q, rfl⟩ : ∃ (p : Fin 64) (q : Fin 256), j = ValueIdx.ix2 p q := ⟨j 0, j 1, ValueIdx.eq_ix2 j⟩
  refine (hOUT t ht p q).trans ?_
  show GV m c _ = GV m c (((cfg0.win 6).blk t).view.emb (ValueIdx.ix2 p q))
  refine congrArg (GV m c) (funext fun a => Fin.ext ?_)
  match a with
  | ⟨0, _⟩ => show p.val = win0_6.index t (0 : Fin 2) * 64 + 1 * p.val; omega
  | ⟨1, _⟩ => show 256 * (t.val - 16) + q.val = win0_6.index t (1 : Fin 2) * 256 + 1 * q.val; omega

/-! ## The blocks tile the array -/

/-- An index of the array is in point t's block iff each coordinate is in the block's range on its axis. -/
theorem mem_blk6 (t : Fin cfg0.N) (i : S64x4096.Idx) :
    i ∈ ((cfg0.win 6).blk t).view.set ↔ ∀ a : Fin 2, win0_6.index t a * S64x256.size a ≤ (i a).val ∧ (i a).val < win0_6.index t a * S64x256.size a + S64x256.size a := by
  show i ∈ ((View.whole main_v0).slice (win0_6.rect t)).set ↔ _
  rw [View.set_slice_whole, Rect.mem_set_unit]
  exact Iff.rfl

/-- Every index of the array is in the block of a writing point: column j in that of point 16 + j / 256. -/
theorem cover6 (i : S64x4096.Idx) :
    ∃ t : Fin cfg0.N, (cfg0.win 6).flush t = true ∧ i ∈ ((cfg0.win 6).blk t).view.set := by
  have hi0 : (i 0).val < 64 := ValueIdx.idx2_lt0 i
  have hi1 : (i 1).val < 4096 := ValueIdx.idx2_lt1 i
  have hN : cfg0.N = 32 := N_0
  obtain ⟨t, ht⟩ : ∃ t : Fin cfg0.N, t.val = 16 + (i 1).val / 256 := ⟨⟨16 + (i 1).val / 256, by omega⟩, rfl⟩
  obtain ⟨e0, e1⟩ := idx6 t
  rw [if_neg (by omega)] at e1
  refine ⟨t, (flush6_iff t).mpr (by omega), ?_⟩
  rw [mem_blk6]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 256 ≤ (i 1).val ∧ (i 1).val < win0_6.index t (1 : Fin 2) * 256 + 256; omega

/-! ## The result array after the run -/

/-- The result array ends holding the specification, once the block the body leaves at each of the last sixteen
    points is the specification on the point's columns. -/
theorem final_of (c : Dev nD)
    (hOUT : ∀ (t : Fin cfg0.N) (ht : 16 ≤ t.val) (p : Fin 64) (q : Fin 256),
      OUT m c t (ValueIdx.ix2 p q) = GV m c (ValueIdx.ix2 p (⟨256 * (t.val - 16) + q.val, by have := t.isLt; have : cfg0.N = 32 := N_0; have := q.isLt; omega⟩ : Fin 4096))) :
    (dats m 0 c).arrAt 6 cfg0.N = GV m c :=
  (dats m 0 c).arrAt_eq_of_cover 6 (GV m c) (fun t hf => flushed6_eq m c hOUT t hf) cover6

end Cert.KernelIdeal.Hand

end
-- ==== Proof.LibPlainDot.lean ====
/-
  The host's matrix product read at an index given by coordinates, at the ideal values, for any extents and element
  formats: for the plain dimension numbers — an `M × K` left operand and a `K × N` right operand contracted over the
  left's columns and the right's rows, no batch axis — a `dot_general` is, at `(i, j)`, the sum over `k` of
  `l (i, k) · r (k, j)`, whatever its precision and schedule keys. At the ideal values the host's product and a
  kernel's product into a zero accumulator are the same sum over the contraction shape, so the kernel's reading
  carries over.
-/
import proofs.«162602_g29257317220555_retrytranche2_756_5_alg».proof.Proof.LibPlainMatmul

namespace Cert.LibPlainDot

open Idealize.ShloMosaic Idealize.ShloMosaic.ValueIdx

/-- The host product of an `M × K` and a `K × N` matrix, read at `(i, j)`. -/
theorem dotGeneral_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (i : Fin M) (j : Fin N) :
    FloatOps.dotGeneral D prec sched l r (ix2 i j) = ∑ k : Fin K, l (ix2 i k) * r (ix2 k j) := by
  rw [Ideal.dotGeneral_apply, ← Ideal.matmul_constant_zero_apply D prec l r (ix2 i j)]
  exact Cert.LibPlainMatmul.matmul_zero_apply D hlc hrc hln hrn hlb hrb prec l r i j

end Cert.LibPlainDot
-- ==== Proof.RefSpec.lean ====
/-
  The reference program's result, at the ideal values, is the specification.

  The reference computes tanh(X·Wsᵀ) + tanh((X·Wuᵀ)·Lu) + tanh((X·Wdᵀ)·Ld), the first two terms added first,
  with each product a host matrix product and each Wᵀ a transposition. Read at (i, j): a transposition swaps the two
  coordinates, a matrix product of a 64 × 4096 and a 4096 × 4096 matrix is the sum over the 4096 inner positions of
  the products of entries, and tanh and + act entry by entry. So each summand is the specification's `proj` or
  `conv` sum term by term, and the whole entry is the specification's `cell`.
-/
import proofs.«162602_g29257317220555_retrytranche2_756_5_alg».proof.Proof.Gen.ReferenceIdeal.Read
import proofs.«162602_g29257317220555_retrytranche2_756_5_alg».proof.Proof.Spec
import proofs.«162602_g29257317220555_retrytranche2_756_5_alg».proof.Proof.LibPlainDot

noncomputable section

namespace Cert.ReferenceIdeal.RefValue

open Cert.ReferenceIdeal Cert.ReferenceIdeal.Gen Idealize.ShloMosaic Idealize.ShloMosaic.ValueIdx
open scoped BigOperators

/-- The transposed square matrix at (k, l) is the matrix at (l, k). -/
theorem transpose_ix2 (W : FVec Ideal S4096x4096 .f32) (k l : Fin 4096) :
    transpose S4096x4096 [1, 0] W transposes_S4096x4096_S4096x4096_1_0 (ix2 k l) = W (ix2 l k) :=
  transpose_apply [1, 0] W transposes_S4096x4096_S4096x4096_1_0 (ix2 k l) (ix2 l k) (fun b => match b with
    | ⟨0, _⟩ => rfl
    | ⟨1, _⟩ => rfl)

/-- The host product of a 64 × 4096 and a 4096 × 4096 matrix at (i, j): the sum over k of A(i, k)·B(k, j). -/
theorem dot_ix2 (A : FVec Ideal S64x4096 .f32) (B : FVec Ideal S4096x4096 .f32) (i : Fin 64) (j : Fin 4096) :
    Host.dotGeneral (F := Ideal) dot_S64x4096_S4096x4096_S64x4096_1_0_0_1_n_n none A B (ix2 i j)
      = ∑ k : Fin 4096, A (ix2 i k) * B (ix2 k j) :=
  Cert.LibPlainDot.dotGeneral_apply dot_S64x4096_S4096x4096_S64x4096_1_0_0_1_n_n rfl rfl rfl rfl rfl rfl
    none .single A B i j

/-- X·Wᵀ at (i, l) is the specification's `proj`. -/
theorem proj_eq (X : FVec Ideal S64x4096 .f32) (W : FVec Ideal S4096x4096 .f32) (i : Fin 64) (l : Fin 4096) :
    Host.dotGeneral (F := Ideal) dot_S64x4096_S4096x4096_S64x4096_1_0_0_1_n_n none X
        (transpose S4096x4096 [1, 0] W transposes_S4096x4096_S4096x4096_1_0) (ix2 i l)
      = Cert.Spec.proj X W i l := by
  refine (dot_ix2 X _ i l).trans ?_
  unfold Cert.Spec.proj
  refine Finset.sum_congr rfl fun k _ => ?_
  rw [transpose_ix2]

/-- (X·Wᵀ)·L at (i, j) is the specification's `conv`. -/
theorem conv_eq (X : FVec Ideal S64x4096 .f32) (W L : FVec Ideal S4096x4096 .f32) (i : Fin 64) (j : Fin 4096) :
    Host.dotGeneral (F := Ideal) dot_S64x4096_S4096x4096_S64x4096_1_0_0_1_n_n none
        (Host.dotGeneral (F := Ideal) dot_S64x4096_S4096x4096_S64x4096_1_0_0_1_n_n none X
          (transpose S4096x4096 [1, 0] W transposes_S4096x4096_S4096x4096_1_0)) L (ix2 i j)
      = Cert.Spec.conv X W L i j := by
  refine (dot_ix2 _ L i j).trans ?_
  unfold Cert.Spec.conv
  refine Finset.sum_congr rfl fun l _ => ?_
  rw [proj_eq]

/-- The reference's result term is the specification. -/
theorem ref_eq (X : FVec Ideal S64x4096 .f32) (Lu Ld Ws Wu Wd : FVec Ideal S4096x4096 .f32) :
    addf (addf (Host.tanh (Host.dotGeneral (F := Ideal) dot_S64x4096_S4096x4096_S64x4096_1_0_0_1_n_n none X (transpose S4096x4096 [1, 0] Ws transposes_S4096x4096_S4096x4096_1_0)))
               (Host.tanh (Host.dotGeneral (F := Ideal) dot_S64x4096_S4096x4096_S64x4096_1_0_0_1_n_n none (Host.dotGeneral (F := Ideal) dot_S64x4096_S4096x4096_S64x4096_1_0_0_1_n_n none X (transpose S4096x4096 [1, 0] Wu transposes_S4096x4096_S4096x4096_1_0)) Lu)))
         (Host.tanh (Host.dotGeneral (F := Ideal) dot_S64x4096_S4096x4096_S64x4096_1_0_0_1_n_n none (Host.dotGeneral (F := Ideal) dot_S64x4096_S4096x4096_S64x4096_1_0_0_1_n_n none X (transpose S4096x4096 [1, 0] Wd transposes_S4096x4096_S4096x4096_1_0)) Ld))
      = Cert.Spec.G X Lu Ld Ws Wu Wd := by
  funext y
  obtain ⟨i, j, rfl⟩ : ∃ (i : Fin 64) (j : Fin 4096), y = ix2 i j := ⟨y 0, y 1, eq_ix2 y⟩
  rw [Cert.Spec.G_apply]
  unfold Cert.Spec.cell
  rw [← proj_eq X Ws i j, ← conv_eq X Wu Lu i j, ← conv_eq X Wd Ld i j]
  rfl

end Cert.ReferenceIdeal.RefValue

end
-- ==== Proof.lean ====
/-
  The certificate of one fused layer kernel against its reference:
    out = tanh(X·Wsᵀ) + tanh((X·Wuᵀ)·Lu) + tanh((X·Wdᵀ)·Ld),   X of shape 64 × 4096, five square operands of order 4096.

  The kernel walks a 2 × 16 grid.  In phase 0, point j computes the 256 columns [256 j, 256 j + 256) of X·Wsᵀ (through
  tanh), X·Wuᵀ and X·Wdᵀ from the j-th 256-row block of each weight matrix and stores them into three scratch buffers
  it keeps across points.  In phase 1, point j multiplies the two filled products by the j-th 256-column block of Lu
  and Ld, applies tanh, adds the matching slab of the first scratch, and stores the 64 × 256 result block, which the
  pipeline writes back as columns [256 j, 256 j + 256) of the result.

  Frames (both the word-level and the idealized kernel, one proof generic in the float instance): the invariant
  carried from point to point says that the scratch columns below 256 n are final before the point at position n;
  phase 0 extends it by one slab, phase 1 reads the filled buffers and leaves them alone.
  Values (at the extended reals, where a change of float format is the identity): a filled scratch column is a row of
  the corresponding weight matrix against X, a block of the result is the specification's cell, the sixteen blocks
  written back tile the result array, and the reference's composed operations are the same sums of the same
  products.  No finiteness is used: both sides are literally the same expression on the extended reals.
-/
import proofs.«162602_g29257317220555_retrytranche2_756_5_alg».proof.Defs
import proofs.«162602_g29257317220555_retrytranche2_756_5_alg».proof.Proof.Gen.Kernel
import proofs.«162602_g29257317220555_retrytranche2_756_5_alg».proof.Proof.Gen.KernelIdeal
import proofs.«162602_g29257317220555_retrytranche2_756_5_alg».proof.Proof.Gen.ReferenceIdeal
import proofs.«162602_g29257317220555_retrytranche2_756_5_alg».proof.Proof.Gen.Pre_finite_inputs
import proofs.«162602_g29257317220555_retrytranche2_756_5_alg».proof.Proof.K.Frame
import proofs.«162602_g29257317220555_retrytranche2_756_5_alg».proof.Proof.KI.Frame
import proofs.«162602_g29257317220555_retrytranche2_756_5_alg».proof.Proof.KI.OutValue
import proofs.«162602_g29257317220555_retrytranche2_756_5_alg».proof.Proof.KI.Final
import proofs.«162602_g29257317220555_retrytranche2_756_5_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its argument arrays unchanged. -/
theorem frame_kernel : Cert.frame_Kernel :=
  fun m ρ _ => Cert.Kernel.Hand.frame m ρ

/-- The idealized kernel runs and leaves its argument arrays unchanged. -/
theorem frame_kernelIdeal : Cert.frame_KernelIdeal :=
  fun m ρ _ => Cert.KernelIdeal.Hand.frame m ρ

/-- The reference runs and leaves its argument arrays unchanged: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

open Cert.KernelIdeal Cert.KernelIdeal.Gen Cert.KernelIdeal.Hand in
/-- The idealized kernel's run with its result array named: the specification of the argument arrays. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_of m c (OUT_apply m c)),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

/-- From memories agreeing on the arguments both idealized programs end with the specification of those arguments
    in their result arrays. -/
theorem algebraic :
    Cert.algebraic_KernelIdeal_ReferenceIdeal := by
  intro m ρ m' ρ' _ hagree
  refine ⟨fun c => Cert.KernelIdeal.Hand.GV m c, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.ref_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
